-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v7_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x4x32x32 : Shape := ⟨5, ![8, 256, 4, 32, 32]⟩
abbrev S2000x256 : Shape := ⟨2, ![2000, 256]⟩
abbrev S_ : Shape := ⟨0, ![]⟩

class Facts : Prop where
  bcast_S_S8x256x4x32x32 : S_.BroadcastsInDim S8x256x4x32x32 (![] : Fin 0 → Fin S8x256x4x32x32.rank)
  reducesTo_S8x256x4x32x32_S_d0_1_2_3_4 : S8x256x4x32x32.ReducesTo [0, 1, 2, 3, 4] S_
  h_S_ : 0 < S_.numel
  bcast_S_S2000x256 : S_.BroadcastsInDim S2000x256 (![] : Fin 0 → Fin S2000x256.rank)
  reducesTo_S2000x256_S_d0_1 : S2000x256.ReducesTo [0, 1] S_

variable [Facts]

def fn {F : FTy → Type} [FloatOps F] (main_arg0 : FVec F S8x256x4x32x32 .f32) (main_arg1 : FVec F S2000x256 .f32) : IVec S_ 1 :=
  let main_v0 : FVec F S8x256x4x32x32 .f32 := Host.absf main_arg0
  let main_cst : FVec F S_ .f32 := constant S_ .f32 0x7F800000#32
  let main_v1 : FVec F S8x256x4x32x32 .f32 := broadcastInDim S8x256x4x32x32 ![] bcast_S_S8x256x4x32x32 main_cst
  let main_v2 : IVec S8x256x4x32x32 1 := cmpf .olt main_v0 main_v1
  let main_c : IVec S_ 1 := constantI S_ 1 1#1
  let main_v3 : IVec S_ 1 := (fun x v => Host.reduce IntOp.andi x v reducesTo_S8x256x4x32x32_S_d0_1_2_3_4 h_S_) main_v2 main_c
  let main_v4 : FVec F S2000x256 .f32 := Host.absf main_arg1
  let main_cst_0 : FVec F S_ .f32 := constant S_ .f32 0x7F800000#32
  let main_v5 : FVec F S2000x256 .f32 := broadcastInDim S2000x256 ![] bcast_S_S2000x256 main_cst_0
  let main_v6 : IVec S2000x256 1 := cmpf .olt main_v4 main_v5
  let main_c_1 : IVec S_ 1 := constantI S_ 1 1#1
  let main_v7 : IVec S_ 1 := (fun x v => Host.reduce IntOp.andi x v reducesTo_S2000x256_S_d0_1 h_S_) main_v6 main_c_1
  let main_v8 : IVec S_ 1 := andi main_v3 main_v7
  main_v8
-- ==== Kernel.lean ====
abbrev S8x256x4x32x32 : Shape := ⟨5, ![8, 256, 4, 32, 32]⟩
abbrev S2000x256 : Shape := ⟨2, ![2000, 256]⟩
abbrev S8x256x4096 : Shape := ⟨3, ![8, 256, 4096]⟩
abbrev S_ : Shape := ⟨0, ![]⟩
abbrev S2000 : Shape := ⟨1, ![2000]⟩
abbrev S2000x1 : Shape := ⟨2, ![2000, 1]⟩
abbrev S32768x2000 : Shape := ⟨2, ![32768, 2000]⟩
abbrev S1x256x512 : Shape := ⟨3, ![1, 256, 512]⟩
abbrev S512x2000 : Shape := ⟨2, ![512, 2000]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 17
  | .vmem => 8
  | .smem => 0
  | _ => 0

abbrev bufTy : (tb : Table) → Fin (tcTables nBuf tb) → BufTy
  | .hbm, ⟨0, _⟩ => ⟨S8x256x4x32x32, .f32⟩
  | .hbm, ⟨1, _⟩ => ⟨S2000x256, .f32⟩
  | .hbm, ⟨2, _⟩ => ⟨S8x256x4096, .f32⟩
  | .hbm, ⟨3, _⟩ => ⟨S2000x256, .f32⟩
  | .hbm, ⟨4, _⟩ => ⟨S_, .f32⟩
  | .hbm, ⟨5, _⟩ => ⟨S2000, .f32⟩
  | .hbm, ⟨6, _⟩ => ⟨S2000x1, .f32⟩
  | .hbm, ⟨7, _⟩ => ⟨S2000x1, .f32⟩
  | .hbm, ⟨8, _⟩ => ⟨S_, .f32⟩
  | .hbm, ⟨9, _⟩ => ⟨S2000x1, .f32⟩
  | .hbm, ⟨10, _⟩ => ⟨S2000x1, .f32⟩
  | .hbm, ⟨11, _⟩ => ⟨S2000x256, .f32⟩
  | .hbm, ⟨12, _⟩ => ⟨S2000x256, .f32⟩
  | .hbm, ⟨13, _⟩ => ⟨S2000x256, .bf16⟩
  | .hbm, ⟨14, _⟩ => ⟨S32768x2000, .f32⟩
  | .hbm, ⟨15, _⟩ => ⟨S8x256x4096, .f32⟩
  | .hbm, ⟨16, _⟩ => ⟨S8x256x4x32x32, .f32⟩
  | .local _ .vmem, ⟨0, _⟩ => ⟨S1x256x512, .f32⟩
  | .local _ .vmem, ⟨1, _⟩ => ⟨S1x256x512, .f32⟩
  | .local _ .vmem, ⟨2, _⟩ => ⟨S2000x256, .f32⟩
  | .local _ .vmem, ⟨3, _⟩ => ⟨S2000x256, .bf16⟩
  | .local _ .vmem, ⟨4, _⟩ => ⟨S512x2000, .f32⟩
  | .local _ .vmem, ⟨5, _⟩ => ⟨S512x2000, .f32⟩
  | .local _ .vmem, ⟨6, _⟩ => ⟨S1x256x512, .f32⟩
  | .local _ .vmem, ⟨7, _⟩ => ⟨S1x256x512, .f32⟩
  | _, _ => ⟨S8x256x4x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2000x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x256x4x32x32_S8x256x4096 : S8x256x4x32x32.ShapeCasts S8x256x4096
  reducesTo_S2000x256_S2000_d1 : S2000x256.ReducesTo [1] S2000
  h_S_ : 0 < S_.numel
  bcast_S2000_S2000x1_0 : S2000.BroadcastsInDim S2000x1 (![0] : Fin 1 → Fin S2000x1.rank)
  bcast_S_S2000x1 : S_.BroadcastsInDim S2000x1 (![] : Fin 0 → Fin S2000x1.rank)
  bcast_S2000x1_S2000x256_0_1 : S2000x1.BroadcastsInDim S2000x256 (![0, 1] : Fin 2 → Fin S2000x256.rank)
  bitsLt_bf16_f32 : FTy.bits .bf16 < FTy.bits .f32
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  transposes_S256x512_p1_0_S512x256 : S256x512.Transposes [1, 0] S512x256
  reduces_S512x256_S512 : S512x256.Reduces [1] S512
  shapeCasts_S512_S512x1 : S512.ShapeCasts S512x1
  broadcasts_S512x1_S512x256 : S512x1.Broadcasts S512x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  reduces_S512x2000_S512 : S512x2000.Reduces [1] S512
  broadcasts_S512x1_S512x2000 : S512x1.Broadcasts S512x2000
  inb_S512x2000_S512x2000_0_0 : ∀ a, (![0, 0] : Fin 2 → Nat) a + S512x2000.size a ≤ S512x2000.size a
  h_S512x2000 : 0 < S512x2000.numel
  transposes_S512x256_p1_0_S256x512 : S512x256.Transposes [1, 0] S256x512
  shapeCasts_S256x512_S1x256x512 : S256x512.ShapeCasts S1x256x512
  shapeCasts_S8x256x4096_S8x256x4x32x32 : S8x256x4096.ShapeCasts S8x256x4x32x32
  dot_S512x256_S2000x256_S512x2000_1_1_0_0_n_n_wf : DotDims.WF S512x256 S2000x256 S512x2000 [1] [1] [0] [0] [] []
  dot_S512x2000_S2000x256_S512x256_1_0_0_1_n_n_wf : DotDims.WF S512x2000 S2000x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S8x256x4096.size a
  hwx0_0 : ∀ i : grid0.Coords, EltTy.bits .f32 = 32 ∨ (Rect.block (s := S8x256x4096) S1x256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S2000x256.size a
  hwx0_1 : ∀ i : grid0.Coords, EltTy.bits .f32 = 32 ∨ (Rect.block (s := S2000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S2000x256.size a
  hwx0_2 : ∀ i : grid0.Coords, EltTy.bits .bf16 = 32 ∨ (Rect.block (s := S2000x256) S2000x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2000.size a ≤ S32768x2000.size a
  hwx0_3 : ∀ i : grid0.Coords, EltTy.bits .f32 = 32 ∨ (Rect.block (s := S32768x2000) S512x2000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x512.size a ≤ S8x256x4096.size a
  hwx0_4 : ∀ i : grid0.Coords, EltTy.bits .f32 = 32 ∨ (Rect.block (s := S8x256x4096) S1x256x512.size (cc0_transform_4 i) (hinb0_4 i)).WholeWords (EltTy.packing .f32)

variable [Facts₀]

def dot_S512x256_S2000x256_S512x2000_1_1_0_0_n_n : DotDims S512x256 S2000x256 S512x2000 where
  lhsContracting := [1]
  rhsContracting := [1]
  lhsNonContracting := [0]
  rhsNonContracting := [0]
  lhsBatch := []
  rhsBatch := []
  wf := dot_S512x256_S2000x256_S512x2000_1_1_0_0_n_n_wf
def dot_S512x2000_S2000x256_S512x256_1_0_0_1_n_n : DotDims S512x2000 S2000x256 S512x256 where
  lhsContracting := [1]
  rhsContracting := [0]
  lhsNonContracting := [0]
  rhsNonContracting := [1]
  lhsBatch := []
  rhsBatch := []
  wf := dot_S512x2000_S2000x256_S512x256_1_0_0_1_n_n_wf

abbrev win0_0 : Pipeline.Window sig grid0 :=
  Pipeline.Window.ofSpec (Memref.whole main_v0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2000x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S512x2000.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S1x256x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x256x4x32x32 : Shape := ⟨5, ![8, 256, 4, 32, 32]⟩
abbrev S2000x256 : Shape := ⟨2, ![2000, 256]⟩
abbrev S8x4x32x32x256 : Shape := ⟨5, ![8, 4, 32, 32, 256]⟩
abbrev S32768x256 : Shape := ⟨2, ![32768, 256]⟩
abbrev S_ : Shape := ⟨0, ![]⟩
abbrev S32768 : Shape := ⟨1, ![32768]⟩
abbrev S32768x1 : Shape := ⟨2, ![32768, 1]⟩
abbrev S2000 : Shape := ⟨1, ![2000]⟩
abbrev S2000x1 : Shape := ⟨2, ![2000, 1]⟩
abbrev S256x2000 : Shape := ⟨2, ![256, 2000]⟩
abbrev S32768x2000 : Shape := ⟨2, ![32768, 2000]⟩

abbrev nBuf : Space → Nat
  | .hbm => 64
  | .vmem => 0
  | .smem => 0
  | _ => 0

abbrev bufTy : (tb : Table) → Fin (tcTables nBuf tb) → BufTy
  | .hbm, ⟨0, _⟩ => ⟨S8x256x4x32x32, .f32⟩
  | .hbm, ⟨1, _⟩ => ⟨S2000x256, .f32⟩
  | .hbm, ⟨2, _⟩ => ⟨S8x4x32x32x256, .f32⟩
  | .hbm, ⟨3, _⟩ => ⟨S32768x256, .f32⟩
  | .hbm, ⟨4, _⟩ => ⟨S32768x256, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x256, .f32⟩
  | .hbm, ⟨13, _⟩ => ⟨S32768x256, .f32⟩
  | .hbm, ⟨14, _⟩ => ⟨S2000x256, .f32⟩
  | .hbm, ⟨15, _⟩ => ⟨S_, .f32⟩
  | .hbm, ⟨16, _⟩ => ⟨S2000, .f32⟩
  | .hbm, ⟨17, _⟩ => ⟨S2000x1, .f32⟩
  | .hbm, ⟨18, _⟩ => ⟨S2000x1, .f32⟩
  | .hbm, ⟨19, _⟩ => ⟨S_, .f32⟩
  | .hbm, ⟨20, _⟩ => ⟨S2000x1, .f32⟩
  | .hbm, ⟨21, _⟩ => ⟨S2000x1, .f32⟩
  | .hbm, ⟨22, _⟩ => ⟨S2000x256, .f32⟩
  | .hbm, ⟨23, _⟩ => ⟨S2000x256, .f32⟩
  | .hbm, ⟨24, _⟩ => ⟨S256x2000, .f32⟩
  | .hbm, ⟨25, _⟩ => ⟨S32768x2000, .f32⟩
  | .hbm, ⟨26, _⟩ => ⟨S_, .f32⟩
  | .hbm, ⟨27, _⟩ => ⟨S32768, .f32⟩
  | .hbm, ⟨28, _⟩ => ⟨S_, .f32⟩
  | .hbm, ⟨29, _⟩ => ⟨S32768, .f32⟩
  | .hbm, ⟨30, _⟩ => ⟨S32768, .f32⟩
  | .hbm, ⟨31, _⟩ => ⟨S32768x1, .f32⟩
  | .hbm, ⟨32, _⟩ => ⟨S32768x2000, .f32⟩
  | .hbm, ⟨33, _⟩ => ⟨S32768x2000, .f32⟩
  | .hbm, ⟨34, _⟩ => ⟨S32768x2000, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S32768x2000, .f32⟩
  | .hbm, ⟨39, _⟩ => ⟨S32768x2000, .f32⟩
  | .hbm, ⟨40, _⟩ => ⟨S_, .f32⟩
  | .hbm, ⟨41, _⟩ => ⟨S32768x2000, .f32⟩
  | .hbm, ⟨42, _⟩ => ⟨S32768x2000, .f32⟩
  | .hbm, ⟨43, _⟩ => ⟨S_, .f32⟩
  | .hbm, ⟨44, _⟩ => ⟨S32768x2000, .f32⟩
  | .hbm, ⟨45, _⟩ => ⟨S32768x2000, .f32⟩
  | .hbm, ⟨46, _⟩ => ⟨S32768x2000, .f32⟩
  | .hbm, ⟨47, _⟩ => ⟨S32768x2000, .f32⟩
  | .hbm, ⟨48, _⟩ => ⟨S_, .f32⟩
  | .hbm, ⟨49, _⟩ => ⟨S32768x2000, .f32⟩
  | .hbm, ⟨50, _⟩ => ⟨S32768x2000, .f32⟩
  | .hbm, ⟨51, _⟩ => ⟨S32768x2000, .f32⟩
  | .hbm, ⟨52, _⟩ => ⟨S32768x2000, .f32⟩
  | .hbm, ⟨53, _⟩ => ⟨S_, .f32⟩
  | .hbm, ⟨54, _⟩ => ⟨S32768, .f32⟩
  | .hbm, ⟨55, _⟩ => ⟨S32768x1, .f32⟩
  | .hbm, ⟨56, _⟩ => ⟨S_, .f32⟩
  | .hbm, ⟨57, _⟩ => ⟨S32768x1, .f32⟩
  | .hbm, ⟨58, _⟩ => ⟨S32768x1, .f32⟩
  | .hbm, ⟨59, _⟩ => ⟨S32768x2000, .f32⟩
  | .hbm, ⟨60, _⟩ => ⟨S32768x2000, .f32⟩
  | .hbm, ⟨61, _⟩ => ⟨S32768x256, .f32⟩
  | .hbm, ⟨62, _⟩ => ⟨S8x4x32x32x256, .f32⟩
  | .hbm, ⟨63, _⟩ => ⟨S8x256x4x32x32, .f32⟩
  | _, _ => ⟨S8x256x4x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_call2_cst : Ref sig .tc := ⟨.hbm, 43, rfl⟩
abbrev main_call2_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]

class Facts₀ : Prop where
  transposes_S8x256x4x32x32_S8x4x32x32x256_0_2_3_4_1 : S8x256x4x32x32.Transposes [0, 2, 3, 4, 1] S8x4x32x32x256
  shapeCasts_S8x4x32x32x256_S32768x256 : S8x4x32x32x256.ShapeCasts S32768x256
  reducesTo_S32768x256_S32768_d1 : S32768x256.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x256_0_1 : S32768x1.BroadcastsInDim S32768x256 (![0, 1] : Fin 2 → Fin S32768x256.rank)
  reducesTo_S2000x256_S2000_d1 : S2000x256.ReducesTo [1] S2000
  bcast_S2000_S2000x1_0 : S2000.BroadcastsInDim S2000x1 (![0] : Fin 1 → Fin S2000x1.rank)
  bcast_S_S2000x1 : S_.BroadcastsInDim S2000x1 (![] : Fin 0 → Fin S2000x1.rank)
  bcast_S2000x1_S2000x256_0_1 : S2000x1.BroadcastsInDim S2000x256 (![0, 1] : Fin 2 → Fin S2000x256.rank)
  transposes_S2000x256_S256x2000_1_0 : S2000x256.Transposes [1, 0] S256x2000
  reducesTo_S32768x2000_S32768_d1 : S32768x2000.ReducesTo [1] S32768
  bcast_S_S32768 : S_.BroadcastsInDim S32768 (![] : Fin 0 → Fin S32768.rank)
  bcast_S32768x1_S32768x2000_0_1 : S32768x1.BroadcastsInDim S32768x2000 (![0, 1] : Fin 2 → Fin S32768x2000.rank)
  bcast_S_S32768x2000 : S_.BroadcastsInDim S32768x2000 (![] : Fin 0 → Fin S32768x2000.rank)
  shapeCasts_S32768x256_S8x4x32x32x256 : S32768x256.ShapeCasts S8x4x32x32x256
  transposes_S8x4x32x32x256_S8x256x4x32x32_0_4_1_2_3 : S8x4x32x32x256.Transposes [0, 4, 1, 2, 3] S8x256x4x32x32
  dot_S32768x256_S256x2000_S32768x2000_1_0_0_1_n_n_wf : DotDims.WF S32768x256 S256x2000 S32768x2000 [1] [0] [0] [1] [] []
  dot_S32768x2000_S2000x256_S32768x256_1_0_0_1_n_n_wf : DotDims.WF S32768x2000 S2000x256 S32768x256 [1] [0] [0] [1] [] []

variable [Facts₀]

def dot_S32768x256_S256x2000_S32768x2000_1_0_0_1_n_n : DotDims S32768x256 S256x2000 S32768x2000 where
  lhsContracting := [1]
  rhsContracting := [0]
  lhsNonContracting := [0]
  rhsNonContracting := [1]
  lhsBatch := []
  rhsBatch := []
  wf := dot_S32768x256_S256x2000_S32768x2000_1_0_0_1_n_n_wf
def dot_S32768x2000_S2000x256_S32768x256_1_0_0_1_n_n : DotDims S32768x2000 S2000x256 S32768x256 where
  lhsContracting := [1]
  rhsContracting := [0]
  lhsNonContracting := [0]
  rhsNonContracting := [1]
  lhsBatch := []
  rhsBatch := []
  wf := dot_S32768x2000_S2000x256_S32768x256_1_0_0_1_n_n_wf

class Facts : Prop extends Facts₀ where

variable [Facts]
-- ==== Proof.LibRowLayout.lean ====
/-
  Row layouts read at an index: the handful of re-arrangements a row-wise kernel and a row-wise host program make of a
  `[B, n]` array and its `[B]` / `[B, 1]` companions, each read at explicit coordinates.

  * a flat vector `[B]` cast to a column `[B, 1]`, and a column cast back to a flat vector: the same entry, row by row;
  * a column `[B, 1]` broadcast along the lanes to `[B, n]`: every lane of row `p` holds the column's entry `p`;
  * a rotation of the lanes by `k`: lane `q` holds what lane `q - k` held, around the end;
  * the same rotation spelt as a host program spells it, the last `k` lanes sliced off and joined in front of the rest;
  * a sum over the lanes on the vector unit: the sum of the row's entries, with no initial value in front;
  * a row divided by its own lane sum, the sum cast to a column and broadcast back: each entry's share of its row's total.

  All are statements about indices only; the element type is arbitrary except for the sum and the share, which are over
  extended reals. Nothing here mentions a program.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost

noncomputable section

open scoped BigOperators

namespace Cert.RowLayout

open Idealize.ShloMosaic Idealize.ShloMosaic.ValueIdx

variable {α : Type}

/-! ## Casts between a flat vector and a column -/

/-- A flat vector cast to a column holds, in row `p`, the vector's entry `p`: both sit at row-major position `p`. -/
theorem castCol_apply {B : Nat} (v : (⟨1, ![B]⟩ : Shape).Idx → α)
    (h : Shape.ShapeCasts (⟨1, ![B]⟩ : Shape) (⟨2, ![B, 1]⟩ : Shape)) (p : Fin B) :
    shapeCast (⟨2, ![B, 1]⟩ : Shape) v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- A column cast to a flat vector holds, at `p`, the column's row `p`. -/
theorem castFlat_apply {B : Nat} (v : (⟨2, ![B, 1]⟩ : Shape).Idx → α)
    (h : Shape.ShapeCasts (⟨2, ![B, 1]⟩ : Shape) (⟨1, ![B]⟩ : Shape)) (p : Fin B) :
    shapeCast (⟨1, ![B]⟩ : Shape) v h (ix1 p) = v (ix2 p (0 : Fin 1)) :=
  shapeCast_apply v h (ix1 p) (ix2 p (0 : Fin 1)) (by
    rw [Shape.rowMajor_val_one, Shape.rowMajor_val_two]
    show p.val * 1 + 0 = p.val
    omega)

/-! ## A column broadcast along the lanes -/

/-- A column broadcast to `n` lanes holds the column's entry of row `p` in every lane of row `p`. -/
theorem bcastCol_apply {B n : Nat} (y : (⟨2, ![B, 1]⟩ : Shape).Idx → α)
    (h : Shape.Broadcasts (⟨2, ![B, 1]⟩ : Shape) (⟨2, ![B, n]⟩ : Shape)) (p : Fin B) (q : Fin n) :
    broadcastTo (⟨2, ![B, n]⟩ : Shape) y h (ix2 p q) = y (ix2 p (0 : Fin 1)) :=
  broadcastTo_apply y h (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-! ## A rotation of the lanes -/

/-- The lane `k` steps behind `q` among `n` lanes, around the end. -/
def behind {n : Nat} (k : Nat) (q : Fin n) : Fin n := ⟨(q.val + n - k % n) % n, Nat.mod_lt _ (Fin.pos q)⟩

/-- The vector unit's rotation of the lanes by the amount `sb`: lane `q` of the result holds what lane
    `q - sb` of the operand held (around the end), in the same row. -/
theorem rotLanes_apply {B n : Nat} (sb : BitVec 32) (x : (⟨2, ![B, n]⟩ : Shape).Idx → α)
    (h : Shape.Rotates (⟨2, ![B, n]⟩ : Shape) (1 : Fin 2) none) (p : Fin B) (q : Fin n) :
    dynamicRotate (s := (⟨2, ![B, n]⟩ : Shape)) (1 : Fin 2) sb none x h (ix2 p q) = x (ix2 p (behind sb.toNat q)) :=
  dynamicRotate_apply (1 : Fin 2) sb x h (ix2 p q) (ix2 p (behind sb.toNat q)) (fun b => match b with
    | ⟨0, _⟩ => by
        show p.val = if (⟨0, _⟩ : Fin 2) = (1 : Fin 2) then _ else p.val
        rw [if_neg (Fin.ne_of_val_ne Nat.zero_ne_one)]
    | ⟨1, _⟩ => by
        show (q.val + n - sb.toNat % n) % n = if (⟨1, _⟩ : Fin 2) = (1 : Fin 2) then (q.val + n - sb.toNat % n) % n else _
        exact (if_pos (Fin.ext rfl)).symm)

/-- Behind a lane among the first `k`: the rotation wraps, and the lane is `n - k` further on. -/
theorem behind_val_of_lt {n k : Nat} (hk : k < n) (q : Fin n) (hq : q.val < k) : (behind k q).val = q.val + n - k := by
  show (q.val + n - k % n) % n = _
  rw [Nat.mod_eq_of_lt hk, Nat.mod_eq_of_lt (by omega)]

/-- Behind a lane past the first `k`: no wrap, the lane is `k` back. -/
theorem behind_val_of_ge {n k : Nat} (hk : k < n) (q : Fin n) (hq : k ≤ q.val) : (behind k q).val = q.val - k := by
  have hqn : q.val < n := q.isLt
  show (q.val + n - k % n) % n = _
  rw [Nat.mod_eq_of_lt hk, show q.val + n - k = (q.val - k) + n by omega, Nat.add_mod_right, Nat.mod_eq_of_lt (by omega)]

/-- The same rotation as a host program spells it: the last `k` lanes (a slice at lane offset `r = n - k`) joined in
    front of the first `r` lanes (a slice at offset `0`). Lane `q` of the join holds what lane `q - k` of the operand
    held, around the end: a lane among the first `k` comes from the first piece, `r` further on; a later lane from the
    second piece, `k` back. -/
theorem rollConcat_apply {B n k r : Nat} (hkr : k + r = n) (hk0 : 0 < k) (hr0 : 0 < r)
    (x : (⟨2, ![B, n]⟩ : Shape).Idx → α)
    (hs₁ : Shape.Slices (⟨2, ![B, n]⟩ : Shape) ![0, r] (⟨2, ![B, k]⟩ : Shape))
    (hs₂ : Shape.Slices (⟨2, ![B, n]⟩ : Shape) ![0, 0] (⟨2, ![B, r]⟩ : Shape))
    (hc : Shape.Concatenates [(⟨2, ![B, k]⟩ : Shape), (⟨2, ![B, r]⟩ : Shape)] (⟨2, ![B, n]⟩ : Shape) (1 : Fin 2))
    (p : Fin B) (q : Fin n) :
    concatenate (⟨2, ![B, n]⟩ : Shape) (1 : Fin 2)
        [⟨(⟨2, ![B, k]⟩ : Shape), extractStridedSlice (⟨2, ![B, k]⟩ : Shape) ![0, r] x hs₁⟩,
         ⟨(⟨2, ![B, r]⟩ : Shape), extractStridedSlice (⟨2, ![B, r]⟩ : Shape) ![0, 0] x hs₂⟩] hc (ix2 p q)
      = x (ix2 p (behind k q)) := by
  have hkn : k < n := by omega
  have hqn : q.val < n := q.isLt
  by_cases hq : q.val < k
  · -- a lane of the first piece
    refine (concatenate_pair_apply_left (t := (⟨2, ![B, n]⟩ : Shape)) (s₁ := (⟨2, ![B, k]⟩ : Shape)) (s₂ := (⟨2, ![B, r]⟩ : Shape))
      (1 : Fin 2) _ _ hc (ix2 p q) rfl (ix2 p (⟨q.val, hq⟩ : Fin k))
      (fun b => match b with | ⟨0, _⟩ => rfl | ⟨1, _⟩ => rfl)).trans ?_
    refine extractStridedSlice_apply ![0, r] x hs₁ (ix2 p (⟨q.val, hq⟩ : Fin k)) (ix2 p (behind k q)) (fun a => match a with
      | ⟨0, _⟩ => by show p.val = 0 + p.val; omega
      | ⟨1, _⟩ => by
          show (behind k q).val = r + q.val
          rw [behind_val_of_lt hkn q hq]; omega)
  · -- a lane of the second piece
    have hq' : k ≤ q.val := Nat.le_of_not_lt hq
    refine (concatenate_pair_apply_right (t := (⟨2, ![B, n]⟩ : Shape)) (s₁ := (⟨2, ![B, k]⟩ : Shape)) (s₂ := (⟨2, ![B, r]⟩ : Shape))
      (1 : Fin 2) _ _ hc (ix2 p q) rfl rfl (ix2 p (⟨q.val - k, by omega⟩ : Fin r))
      (fun b => match b with
        | ⟨0, _⟩ => fun _ => rfl
        | ⟨1, _⟩ => fun hne => absurd (Fin.ext rfl) hne)
      (by show (q.val - k) + k = q.val; omega)).trans ?_
    refine extractStridedSlice_apply ![0, 0] x hs₂ (ix2 p (⟨q.val - k, by omega⟩ : Fin r)) (ix2 p (behind k q)) (fun a => match a with
      | ⟨0, _⟩ => by show p.val = 0 + p.val; omega
      | ⟨1, _⟩ => by
          show (behind k q).val = 0 + (q.val - k)
          rw [behind_val_of_ge hkn q hq']; omega)

/-! ## A sum over the lanes -/

/-- The vector unit's sum over the lanes (its accumulator the zero word, the sum's neutral element) is, in row `p`,
    the sum of the row's `n` entries. -/
theorem laneSum_apply {B n : Nat} (v : FVec Ideal (⟨2, ![B, n]⟩ : Shape) .f32)
    (h : Shape.Reduces (⟨2, ![B, n]⟩ : Shape) [(1 : Fin 2)] (⟨1, ![B]⟩ : Shape)) (hφ : FKind.Formats .f32)
    (hacc : (0x00000000#32 : BitVec 32) = FKind.add.neutral .f32 hφ) (p : Fin B) :
    multiReduction .add [(1 : Fin 2)] (⟨1, ![B]⟩ : Shape) v 0x00000000#32 h hφ hacc (ix1 p) = ∑ k : Fin n, v (ix2 p k) := by
  refine (Ideal.multiReduction_add_single v 0x00000000#32 h hφ hacc (ix1 p)).trans ?_
  refine Finset.sum_congr rfl fun k _ => ?_
  exact congrArg v (funext fun a => Fin.ext (by match a with | ⟨0, _⟩ => rfl | ⟨1, _⟩ => rfl))

/-- A ROW'S SHARE OF ITS OWN TOTAL: a `[B, n]` vector divided by its lane sums — the sums taken on the vector unit, cast
    to a column and broadcast back along the lanes, as a `keepdims` sum is — holds at `(p, q)` the entry divided by the
    sum of row `p`. -/
theorem rowShare_apply {B n : Nat} (U : FVec Ideal (⟨2, ![B, n]⟩ : Shape) .f32)
    (hred : Shape.Reduces (⟨2, ![B, n]⟩ : Shape) [(1 : Fin 2)] (⟨1, ![B]⟩ : Shape)) (hφ : FKind.Formats .f32)
    (hacc : (0x00000000#32 : BitVec 32) = FKind.add.neutral .f32 hφ)
    (hcast : Shape.ShapeCasts (⟨1, ![B]⟩ : Shape) (⟨2, ![B, 1]⟩ : Shape))
    (hbc : Shape.Broadcasts (⟨2, ![B, 1]⟩ : Shape) (⟨2, ![B, n]⟩ : Shape)) (p : Fin B) (q : Fin n) :
    divf U (broadcastTo (⟨2, ![B, n]⟩ : Shape)
        (shapeCast (⟨2, ![B, 1]⟩ : Shape) (multiReduction .add [(1 : Fin 2)] (⟨1, ![B]⟩ : Shape) U 0x00000000#32 hred hφ hacc) hcast)
        hbc) (ix2 p q)
      = Ideal.div (U (ix2 p q)) (∑ k : Fin n, U (ix2 p k)) := by
  refine congrArg (Ideal.div (U (ix2 p q))) ?_
  exact (bcastCol_apply _ hbc p q).trans ((castCol_apply _ hcast p).trans (laneSum_apply U hred hφ hacc p))

end Cert.RowLayout

end
-- ==== Proof.LibRowSoftmax.lean ====
/-
  A row-wise softmax on the vector unit, read at explicit coordinates of a `[B, n]` array.

  * the maximum over the lanes of row `p`, taken from the value the accumulator's word denotes, is the
    greatest of that value and the row's `n` entries;
  * the softmax as a kernel spells it with `keepdims` reductions — subtract the row's maximum (the
    maxima cast to a column and broadcast back along the lanes), exponentiate, divide by the row's sum of
    exponentials (cast and broadcast the same way) — holds at `(p, q)` the share
    `exp (s q - M) / ∑ k, exp (s k - M)` of row `p`, where `s` is the row and `M` its maximum.

  Statements about indices and extended reals only; nothing here mentions a program.
-/
import Idealize.ShloMosaic.PureOps.Ideal
import Idealize.ShloMosaic.PureOps.Ideal.Laws
import Idealize.ShloMosaic.Lib.ValueIdx
import Idealize.ShloMosaic.Lib.Pipeline.Value
import proofs.«100196_j25701084299676_2_alg».proof.Proof.LibRowLayout

noncomputable section

open scoped BigOperators

namespace Cert.RowSoftmax

open Idealize.ShloMosaic Idealize.ShloMosaic.ValueIdx Cert.RowLayout

/-- The greatest of `lo` and a row's entries. -/
def rowMax {n : Nat} (lo : EReal) (s : Fin n → EReal) : EReal := (Finset.univ : Finset (Fin n)).fold max lo s

/-- Entry `q`'s softmax share of its row: its exponential, shifted by the row's maximum, over the sum of
    the row's shifted exponentials. -/
def share {n : Nat} (lo : EReal) (s : Fin n → EReal) (q : Fin n) : EReal :=
  Ideal.div (Ideal.exp (s q - rowMax lo s)) (∑ k : Fin n, Ideal.exp (s k - rowMax lo s))

/-- The vector unit's maximum over the lanes is, in row `p`, the greatest of the accumulator's value and the
    row's `n` entries. -/
theorem laneMax_apply {B n : Nat} (v : FVec Ideal (⟨2, ![B, n]⟩ : Shape) .f32) (acc : BitVec 32)
    (h : Shape.Reduces (⟨2, ![B, n]⟩ : Shape) [(1 : Fin 2)] (⟨1, ![B]⟩ : Shape)) (hφ : FKind.Formats .f32)
    (hacc : acc = FKind.maximumf.neutral .f32 hφ) (p : Fin B) :
    multiReduction .maximumf [(1 : Fin 2)] (⟨1, ![B]⟩ : Shape) v acc h hφ hacc (ix1 p)
      = rowMax (Ideal.ofBits .f32 acc) (fun k : Fin n => v (ix2 p k)) := by
  refine (Ideal.multiReduction_maximumf_single v acc h hφ hacc (ix1 p)).trans ?_
  unfold rowMax
  refine Finset.fold_congr fun k _ => ?_
  exact congrArg v (funext fun a => Fin.ext (by match a with | ⟨0, _⟩ => rfl | ⟨1, _⟩ => rfl))

/-- THE ROW SOFTMAX with `keepdims` reductions: at `(p, q)` it is entry `q`'s share of row `p`. -/
theorem rowSoftmax_apply {B n : Nat} (S : FVec Ideal (⟨2, ![B, n]⟩ : Shape) .f32) (acc : BitVec 32)
    (hred : Shape.Reduces (⟨2, ![B, n]⟩ : Shape) [(1 : Fin 2)] (⟨1, ![B]⟩ : Shape))
    (hφM : FKind.Formats .f32) (haccM : acc = FKind.maximumf.neutral .f32 hφM)
    (hφA : FKind.Formats .f32) (haccA : (0x00000000#32 : BitVec 32) = FKind.add.neutral .f32 hφA)
    (hcast : Shape.ShapeCasts (⟨1, ![B]⟩ : Shape) (⟨2, ![B, 1]⟩ : Shape))
    (hbc : Shape.Broadcasts (⟨2, ![B, 1]⟩ : Shape) (⟨2, ![B, n]⟩ : Shape)) (p : Fin B) (q : Fin n) :
    divf
        (exp (subf S (broadcastTo (⟨2, ![B, n]⟩ : Shape)
          (shapeCast (⟨2, ![B, 1]⟩ : Shape) (multiReduction .maximumf [(1 : Fin 2)] (⟨1, ![B]⟩ : Shape) S acc hred hφM haccM) hcast) hbc)))
        (broadcastTo (⟨2, ![B, n]⟩ : Shape)
          (shapeCast (⟨2, ![B, 1]⟩ : Shape)
            (multiReduction .add [(1 : Fin 2)] (⟨1, ![B]⟩ : Shape)
              (exp (subf S (broadcastTo (⟨2, ![B, n]⟩ : Shape)
                (shapeCast (⟨2, ![B, 1]⟩ : Shape) (multiReduction .maximumf [(1 : Fin 2)] (⟨1, ![B]⟩ : Shape) S acc hred hφM haccM) hcast) hbc)))
              0x00000000#32 hred hφA haccA) hcast) hbc) (ix2 p q)
      = share (Ideal.ofBits .f32 acc) (fun k : Fin n => S (ix2 p k)) q := by
  have hM : ∀ k : Fin n, broadcastTo (⟨2, ![B, n]⟩ : Shape)
        (shapeCast (⟨2, ![B, 1]⟩ : Shape) (multiReduction .maximumf [(1 : Fin 2)] (⟨1, ![B]⟩ : Shape) S acc hred hφM haccM) hcast) hbc (ix2 p k)
      = rowMax (Ideal.ofBits .f32 acc) (fun k : Fin n => S (ix2 p k)) := fun k =>
    (bcastCol_apply _ hbc p k).trans ((castCol_apply _ hcast p).trans (laneMax_apply S acc hred hφM haccM p))
  have hE : ∀ k : Fin n, (exp (subf S (broadcastTo (⟨2, ![B, n]⟩ : Shape)
        (shapeCast (⟨2, ![B, 1]⟩ : Shape) (multiReduction .maximumf [(1 : Fin 2)] (⟨1, ![B]⟩ : Shape) S acc hred hφM haccM) hcast) hbc))
        : FVec Ideal (⟨2, ![B, n]⟩ : Shape) .f32) (ix2 p k)
      = Ideal.exp (S (ix2 p k) - rowMax (Ideal.ofBits .f32 acc) (fun k : Fin n => S (ix2 p k))) := fun k =>
    congrArg (fun z => Ideal.exp (S (ix2 p k) - z)) (hM k)
  refine (rowShare_apply _ hred hφA haccA hcast hbc p q).trans ?_
  unfold share
  rw [hE q]
  exact congrArg _ (Finset.sum_congr rfl fun k _ => hE k)

end Cert.RowSoftmax

end
-- ==== Proof.LibRealRows.lean ====
/-
  Rows of extended reals under the normalisations of an attention-like read: unit scaling, inner products, softmax,
  hard shrink, division by a clamped sum of absolute values — and when a product with a reciprocal is the quotient.

  * the row functions: `unit` (a row over its Euclidean length, the length clamped from below), `logit` (inner
    products of one row with many), `expo` / `softQ` / `softP` (the max-shifted exponentials and the softmax, its
    division spelt as a quotient or as a product with the reciprocal of the total), `shrink`, `l1Q` / `l1P` (a row
    over its clamped sum of absolute values, both spellings), and their compositions `weightsQ` / `weightsP`;
  * real numbers stay real: a finite sum of reals (`coe_sum`), a unit-scaled real row (`unit_real`), inner products
    of real rows (`logit_real`), the maximum of a nonempty real row taken from `-∞` (`rowMax_real`);
  * on the extended reals `x · (1 / y) = x / y` needs `y ≠ 0` (`x / 0` is an infinity of `x`'s sign, `x · (1 / 0)`
    is `x · ⊤`; they differ at `x = 0`): the softmax's total over a nonempty real row is a sum of positive reals
    (`expo_sum_ne_zero`, `softP_eq_softQ`), and it IS zero when a logit is `+∞`; a sum clamped from below by a
    positive constant is positive (`l1P_eq_l1Q`); together `weightsP_eq_weightsQ`;
  * a maximum taken once more against the value it was folded from is unchanged (`max_rowMax`);
  * three f32 words evaluated: `-∞`, and the f32 nearest `1e-8` and nearest `1e-12` as positive reals.

  Statements about extended reals and finite index types only; nothing here mentions a program.
-/
import Idealize.ShloMosaic.PureOps.Ideal
import Idealize.ShloMosaic.PureOps.Ideal.Laws
import Idealize.ShloMosaic.Lib.IdealHost
import proofs.«100196_j25701084299676_2_alg».proof.Proof.LibRowSoftmax

noncomputable section

open scoped BigOperators

namespace Cert.MemRead

open Idealize.ShloMosaic Cert.RowSoftmax

/-! ## The row functions -/

/-- A row scaled to unit length: each entry over the row's Euclidean length, the length clamped from below by `e`. -/
def unit {d : Nat} (e : EReal) (x : Fin d → EReal) (c : Fin d) : EReal :=
  Ideal.div (x c) (max (Ideal.sqrt (∑ k : Fin d, x k * x k)) e)

/-- The inner products of one row with each of `n` rows. -/
def logit {d n : Nat} (a : Fin d → EReal) (b : Fin n → Fin d → EReal) (j : Fin n) : EReal :=
  ∑ c : Fin d, a c * b j c

/-- An entry's exponential, shifted by the row's maximum (the maximum taken from `lo`). -/
def expo {n : Nat} (lo : EReal) (s : Fin n → EReal) (j : Fin n) : EReal := Ideal.exp (s j - rowMax lo s)

/-- The softmax weight as a quotient by the row's total. -/
def softQ {n : Nat} (lo : EReal) (s : Fin n → EReal) (j : Fin n) : EReal :=
  Ideal.div (expo lo s j) (∑ k : Fin n, expo lo s k)

/-- The softmax weight as a product with the reciprocal of the row's total. -/
def softP {n : Nat} (lo : EReal) (s : Fin n → EReal) (j : Fin n) : EReal :=
  expo lo s j * Ideal.div 1 (∑ k : Fin n, expo lo s k)

/-- The hard shrink of a weight: `max (w - c1) 0 * w / (|w - c1| + c2)`. -/
def shrink (c1 c2 w : EReal) : EReal := Ideal.div (max (w - c1) 0 * w) (max (w - c1) (-(w - c1)) + c2)

/-- A row over its clamped sum of absolute values, as a quotient. -/
def l1Q {n : Nat} (c3 : EReal) (v : Fin n → EReal) (j : Fin n) : EReal :=
  Ideal.div (v j) (max (∑ k : Fin n, max (v k) (-(v k))) c3)

/-- The same as a product with the reciprocal. -/
def l1P {n : Nat} (c3 : EReal) (v : Fin n → EReal) (j : Fin n) : EReal :=
  v j * Ideal.div 1 (max (∑ k : Fin n, max (v k) (-(v k))) c3)

/-- The addressing weights of one position from its logits, every normalisation a quotient. -/
def weightsQ {n : Nat} (lo c1 c2 c3 : EReal) (s : Fin n → EReal) : Fin n → EReal :=
  l1Q c3 (fun k => shrink c1 c2 (softQ lo s k))

/-- The same, every normalisation a product with a reciprocal. -/
def weightsP {n : Nat} (lo c1 c2 c3 : EReal) (s : Fin n → EReal) : Fin n → EReal :=
  l1P c3 (fun k => shrink c1 c2 (softP lo s k))

/-! ## Real numbers among the extended reals -/

/-- A finite sum of reals, read as an extended real, is the sum of the terms read as extended reals. -/
theorem coe_sum {ι : Type} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A real row scaled to unit length (the clamp a positive real) is a real row: the sum of squares is a real that
    is not negative, its root a real, the clamped length a positive real, and a quotient by a real that is not zero
    is a product with a real. -/
theorem unit_real {d : Nat} {e : EReal} (he : ∃ r : ℝ, 0 < r ∧ e = (r : EReal)) {x : Fin d → EReal}
    (hx : ∀ k, ∃ r : ℝ, x k = (r : EReal)) (c : Fin d) : ∃ r : ℝ, unit e x c = (r : EReal) := by
  obtain ⟨er, hpos, rfl⟩ := he
  choose xr hxr using hx
  have hsum : (∑ k : Fin d, x k * x k) = ((∑ k : Fin d, xr k * xr k : ℝ) : EReal) := by
    rw [coe_sum]; exact Finset.sum_congr rfl fun k _ => by rw [hxr k, EReal.coe_mul]
  have hnn : ¬ (∑ k : Fin d, xr k * xr k) < 0 := not_lt.mpr (Finset.sum_nonneg fun k _ => mul_self_nonneg _)
  have hne : max (Real.sqrt (∑ k : Fin d, xr k * xr k)) er ≠ 0 := (lt_of_lt_of_le hpos (le_max_right _ _)).ne'
  have hmax : max ((Real.sqrt (∑ k : Fin d, xr k * xr k) : ℝ) : EReal) (er : EReal)
      = ((max (Real.sqrt (∑ k : Fin d, xr k * xr k)) er : ℝ) : EReal) := (EReal.coe_strictMono.monotone.map_max).symm
  unfold unit
  rw [hsum, Ideal.sqrt_coe, if_neg hnn, hmax, hxr c, Ideal.div_coe hne, ← EReal.coe_mul]
  exact ⟨_, rfl⟩

/-- Inner products of real rows are real. -/
theorem logit_real {d n : Nat} {a : Fin d → EReal} {b : Fin n → Fin d → EReal} (ha : ∀ c, ∃ r : ℝ, a c = (r : EReal))
    (hb : ∀ j c, ∃ r : ℝ, b j c = (r : EReal)) (j : Fin n) : ∃ r : ℝ, logit a b j = (r : EReal) := by
  choose ar har using ha
  choose br hbr using hb
  refine ⟨∑ c : Fin d, ar c * br j c, ?_⟩
  unfold logit
  rw [coe_sum]; exact Finset.sum_congr rfl fun c _ => by rw [har c, hbr j c, EReal.coe_mul]

/-- The maximum of a nonempty real row, taken from `-∞`, is real: it is above an entry and below `+∞`. -/
theorem rowMax_real {n : Nat} (hn : 0 < n) {s : Fin n → EReal} (hs : ∀ k, ∃ r : ℝ, s k = (r : EReal)) :
    ∃ r : ℝ, rowMax ⊥ s = (r : EReal) := by
  have hbot : rowMax ⊥ s ≠ ⊥ := by
    refine ((Finset.lt_fold_max _).mpr (Or.inr ⟨⟨0, hn⟩, Finset.mem_univ _, ?_⟩)).ne'
    obtain ⟨r, hr⟩ := hs ⟨0, hn⟩; rw [hr]; exact EReal.bot_lt_coe r
  have htop : rowMax ⊥ s ≠ ⊤ := by
    refine ((Finset.fold_max_lt _).mpr ⟨bot_lt_top, fun k _ => ?_⟩).ne
    obtain ⟨r, hr⟩ := hs k; rw [hr]; exact EReal.coe_lt_top r
  exact ⟨(rowMax ⊥ s).toReal, (EReal.coe_toReal htop hbot).symm⟩

/-! ## A product with a reciprocal against a quotient -/

/-- The softmax's total over a nonempty real row is not zero: every term is the exponential of a real. -/
theorem expo_sum_ne_zero {n : Nat} (hn : 0 < n) {s : Fin n → EReal} (hs : ∀ k, ∃ r : ℝ, s k = (r : EReal)) :
    (∑ k : Fin n, expo ⊥ s k) ≠ 0 := by
  obtain ⟨M, hM⟩ := rowMax_real hn hs
  have hpos : ∀ k, 0 < expo ⊥ s k := fun k => by
    obtain ⟨r, hr⟩ := hs k
    unfold expo
    rw [hr, hM, ← EReal.coe_sub, Ideal.exp_coe]
    exact EReal.coe_pos.mpr (Real.exp_pos _)
  exact (lt_of_lt_of_le (hpos ⟨0, hn⟩)
    (Finset.single_le_sum (fun k _ => (hpos k).le) (Finset.mem_univ (⟨0, hn⟩ : Fin n)))).ne'

/-- On a nonempty real row the two spellings of the softmax agree. -/
theorem softP_eq_softQ {n : Nat} (hn : 0 < n) {s : Fin n → EReal} (hs : ∀ k, ∃ r : ℝ, s k = (r : EReal)) (j : Fin n) :
    softP ⊥ s j = softQ ⊥ s j :=
  Ideal.mul_one_div (expo_sum_ne_zero hn hs)

/-- The two spellings of the division by the clamped sum of absolute values agree, the clamp being positive. -/
theorem l1P_eq_l1Q {n : Nat} {c3 : EReal} (hc : 0 < c3) (v : Fin n → EReal) (j : Fin n) : l1P c3 v j = l1Q c3 v j :=
  Ideal.mul_one_div (lt_of_lt_of_le hc (le_max_right _ _)).ne'

/-- So the two spellings of the addressing weights agree on a nonempty real row of logits. -/
theorem weightsP_eq_weightsQ {n : Nat} (hn : 0 < n) {c3 : EReal} (hc : 0 < c3) (c1 c2 : EReal) {s : Fin n → EReal}
    (hs : ∀ k, ∃ r : ℝ, s k = (r : EReal)) : weightsP ⊥ c1 c2 c3 s = weightsQ ⊥ c1 c2 c3 s := by
  funext j
  unfold weightsP weightsQ
  rw [l1P_eq_l1Q hc]
  have e : (fun k => shrink c1 c2 (softP ⊥ s k)) = fun k => shrink c1 c2 (softQ ⊥ s k) :=
    funext fun k => by rw [softP_eq_softQ hn hs k]
  rw [e]

/-- Taking the maximum once more against the value it was taken from changes nothing. -/
theorem max_rowMax {n : Nat} (lo : EReal) (s : Fin n → EReal) : max lo (rowMax lo s) = rowMax lo s :=
  max_eq_right ((Finset.le_fold_max _).mpr (Or.inl le_rfl))

/-! ## The four literals whose values matter -/

/-- The word of `-∞`. -/
theorem ofBits_neg_inf : Ideal.ofBits .f32 0xFF800000#32 = ⊥ := by simp [Ideal.ofBits, Ideal.ieee]

/-- The word `0x322BCC77` (the f32 nearest `1e-8`) is the positive real `11258999 · 2⁻⁵⁰`. -/
theorem ofBits_eps8 : Ideal.ofBits .f32 0x322BCC77#32 = (((11258999 : ℝ) * (2 : ℝ) ^ (-50 : ℤ) : ℝ) : EReal) := by
  simp [Ideal.ofBits, Ideal.ieee, -EReal.coe_mul]

/-- The word `0x2B8CBCCC` (the f32 nearest `1e-12`) is the positive real `9223372 · 2⁻⁶³`. -/
theorem ofBits_eps12 : Ideal.ofBits .f32 0x2B8CBCCC#32 = (((9223372 : ℝ) * (2 : ℝ) ^ (-63 : ℤ) : ℝ) : EReal) := by
  simp [Ideal.ofBits, Ideal.ieee, -EReal.coe_mul]

theorem eps8_pos : ∃ r : ℝ, 0 < r ∧ Ideal.ofBits .f32 0x322BCC77#32 = (r : EReal) :=
  ⟨_, by positivity, ofBits_eps8⟩

theorem eps12_pos : (0 : EReal) < Ideal.ofBits .f32 0x2B8CBCCC#32 := by
  rw [ofBits_eps12]; exact EReal.coe_pos.mpr (by positivity)

end Cert.MemRead

end
-- ==== Proof.Rows.lean ====
/-
  One position of the memory read, on extended reals: its addressing weights over the memory and its read-out, with
  the five float words both programs share named as the extended reals they denote.

  The two programs spell the softmax's and the last normalisation differently (a quotient by the row's total against a
  product with its reciprocal); on real inputs the logits are real, the totals are not zero, and the two spellings
  agree (`LibRealRows.lean`).
-/
import proofs.«100196_j25701084299676_2_alg».proof.Proof.LibRealRows

noncomputable section

open scoped BigOperators

namespace Cert.MemRead

open Idealize.ShloMosaic Cert.RowSoftmax

/-! ## One position's addressing weights and its read-out -/

/-- The five float words both programs share, as the extended reals they denote. -/
abbrev wEps : EReal := Ideal.ofBits .f32 0x322BCC77#32
abbrev wLo : EReal := Ideal.ofBits .f32 0xFF800000#32
abbrev wThr : EReal := Ideal.ofBits .f32 0x3A03126F#32
abbrev wTiny : EReal := Ideal.ofBits .f32 0x26901D7D#32
abbrev wFloor : EReal := Ideal.ofBits .f32 0x2B8CBCCC#32

/-- The addressing weights of a position with channels `x` over the memory `mem`, every normalisation a quotient. -/
def addr {d n : Nat} (x : Fin d → EReal) (mem : Fin n → Fin d → EReal) : Fin n → EReal :=
  weightsQ wLo wThr wTiny wFloor (logit (unit wEps x) (fun j => unit wEps (mem j)))

/-- The same, the softmax and the final normalisation products with reciprocals. -/
def addrP {d n : Nat} (x : Fin d → EReal) (mem : Fin n → Fin d → EReal) : Fin n → EReal :=
  weightsP wLo wThr wTiny wFloor (logit (unit wEps x) (fun j => unit wEps (mem j)))

/-- The read-out of a position: the memory's rows weighted by the addressing weights. -/
def recall {d n : Nat} (w : Fin n → EReal) (mem : Fin n → Fin d → EReal) (c : Fin d) : EReal := ∑ j : Fin n, w j * mem j c

/-- On real inputs the two spellings of the addressing weights agree: the logits are then real. -/
theorem addrP_eq_addr {d n : Nat} (hn : 0 < n) {x : Fin d → EReal} {mem : Fin n → Fin d → EReal}
    (hx : ∀ c, ∃ r : ℝ, x c = (r : EReal)) (hmem : ∀ j c, ∃ r : ℝ, mem j c = (r : EReal)) : addrP x mem = addr x mem := by
  unfold addrP addr wLo
  rw [ofBits_neg_inf]
  exact weightsP_eq_weightsQ hn eps12_pos _ _
    (logit_real (unit_real eps8_pos hx) (fun j => unit_real eps8_pos (hmem j)))

end Cert.MemRead

end
-- ==== Proof.Body.lean ====
/-
  What the kernel's body stores, read at explicit coordinates, at the ideal values.

  The body is handed one tile of 512 positions: the channel-major block `x0` (`[1, 256, 512]`: channel, then
  position), the unit-scaled memory `x1` (`[2000, 256]`) and the memory itself `x2`. It turns the block so that each
  position's 256 channels lie along the lanes, scales each position's row to unit length, takes the 2000 inner
  products with the scaled memory rows, and from them the addressing weights (softmax, hard shrink, division by the
  clamped sum of absolute values — the softmax's and the last division spelt as products with reciprocals). It stores
  the weights, and the weights times the memory, turned back to channel-major.

  Each stage is a named function of whole vectors; each is read at `(r, j)` as the corresponding row function of
  `Rows.lean` applied to row `r`; and the stored values are, definitionally, the stages composed.
-/
import proofs.«100196_j25701084299676_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import proofs.«100196_j25701084299676_2_alg».proof.Proof.Rows

noncomputable section

open scoped BigOperators

namespace Cert.KernelIdeal.Body

open Idealize.ShloMosaic Idealize.ShloMosaic.ValueIdx Cert.KernelIdeal Cert.KernelIdeal.Gen
open Cert.RowLayout Cert.RowSoftmax Cert.MemRead

/-! ## The stages -/

/-- The tile with positions down the rows and channels along the lanes: entry `(r, c)` is the block's `(0, c, r)`. -/
def rowsOf (x0 : Vec Ideal S1x256x512 .f32) : FVec Ideal S512x256 .f32 :=
  transpose S512x256 [1, 0] (shapeCast S256x512 x0 shapeCasts_S1x256x512_S256x512) transposes_S256x512_p1_0_S512x256

/-- Every row over its Euclidean length, the length clamped from below. -/
def nrm (X : FVec Ideal S512x256 .f32) : FVec Ideal S512x256 .f32 :=
  divf X (broadcastTo S512x256
    (maximumf (sqrt (shapeCast S512x1 (multiReduction .add [1] S512 (mulf X X) 0x00000000#32 reduces_S512x256_S512 (.inl rfl) rfl) shapeCasts_S512_S512x1))
      (broadcast S512x1 (Scalar.ofBits (F := Ideal) .f32 0x322BCC77#32)))
    broadcasts_S512x1_S512x256)

/-- The inner products of each row with each memory row. -/
def logits (Z : FVec Ideal S512x256 .f32) (x1 : Vec Ideal S2000x256 .f32) : FVec Ideal S512x2000 .f32 :=
  matmul dot_S512x256_S2000x256_S512x2000_1_1_0_0_n_n (some .fp32) Z
    (shapeCast S2000x256 x1 shapeCasts_S2000x256_S2000x256 : FVec Ideal S2000x256 .f32)
    (constant S512x2000 .f32 0x00000000#32)

/-- Every entry's exponential, shifted by its row's maximum. -/
def expShift (S : FVec Ideal S512x2000 .f32) : FVec Ideal S512x2000 .f32 :=
  exp (subf S (broadcastTo S512x2000
    (shapeCast S512x1 (multiReduction .maximumf [1] S512 S 0xFF800000#32 reduces_S512x2000_S512 (.inl rfl) rfl) shapeCasts_S512_S512x1)
    broadcasts_S512x1_S512x2000))

/-- The softmax, the division by the row's total spelt as a product with its reciprocal. -/
def soft (S : FVec Ideal S512x2000 .f32) : FVec Ideal S512x2000 .f32 :=
  mulf (expShift S) (broadcastTo S512x2000
    (divf (broadcast S512x1 (Scalar.ofBits (F := Ideal) .f32 0x3F800000#32))
      (shapeCast S512x1 (multiReduction .add [1] S512 (expShift S) 0x00000000#32 reduces_S512x2000_S512 (.inl rfl) rfl) shapeCasts_S512_S512x1))
    broadcasts_S512x1_S512x2000)

/-- The hard shrink, entry by entry. -/
def shr (W : FVec Ideal S512x2000 .f32) : FVec Ideal S512x2000 .f32 :=
  divf (mulf (maximumf (subf W (broadcast S512x2000 (Scalar.ofBits (F := Ideal) .f32 0x3A03126F#32)))
        (broadcast S512x2000 (Scalar.ofBits (F := Ideal) .f32 0x00000000#32))) W)
    (addf (absf (subf W (broadcast S512x2000 (Scalar.ofBits (F := Ideal) .f32 0x3A03126F#32))))
      (broadcast S512x2000 (Scalar.ofBits (F := Ideal) .f32 0x26901D7D#32)))

/-- Every row times the reciprocal of its clamped sum of absolute values. -/
def l1 (V : FVec Ideal S512x2000 .f32) : FVec Ideal S512x2000 .f32 :=
  mulf V (broadcastTo S512x2000
    (divf (broadcast S512x1 (Scalar.ofBits (F := Ideal) .f32 0x3F800000#32))
      (maximumf (shapeCast S512x1 (multiReduction .add [1] S512 (absf V) 0x00000000#32 reduces_S512x2000_S512 (.inl rfl) rfl) shapeCasts_S512_S512x1)
        (broadcast S512x1 (Scalar.ofBits (F := Ideal) .f32 0x2B8CBCCC#32))))
    broadcasts_S512x1_S512x2000)

/-- The tile's addressing weights. -/
def weights (x0 : Vec Ideal S1x256x512 .f32) (x1 : Vec Ideal S2000x256 .f32) : FVec Ideal S512x2000 .f32 :=
  l1 (shr (soft (logits (nrm (rowsOf x0)) x1)))

/-- Weights times memory, turned back to channel-major. -/
def readOut (Wt : FVec Ideal S512x2000 .f32) (x2 : Vec Ideal S2000x256 .bf16) : FVec Ideal S1x256x512 .f32 :=
  shapeCast S1x256x512 (transpose S256x512 [1, 0]
    (matmul dot_S512x2000_S2000x256_S512x256_1_0_0_1_n_n none (truncf .bf16 Wt bitsLt_bf16_f32)
      (shapeCast S2000x256 x2 shapeCasts_S2000x256_S2000x256 : FVec Ideal S2000x256 .bf16) (constant S512x256 .f32 0x00000000#32))
    transposes_S512x256_p1_0_S256x512) shapeCasts_S256x512_S1x256x512

/-- The two stored values are the stages composed. -/
theorem pay1_eq (x0 : Vec Ideal S1x256x512 .f32) (x1 : Vec Ideal S2000x256 .f32) :
    k0_pay1 (k0_pay3 x0 x1) (k0_pay4 x0 x1) = weights x0 x1 := rfl

theorem pay2_eq (x0 : Vec Ideal S1x256x512 .f32) (x1 : Vec Ideal S2000x256 .f32) (x2 : Vec Ideal S2000x256 .bf16) :
    k0_pay2 (k0_pay3 x0 x1) (k0_pay4 x0 x1) x2 = readOut (weights x0 x1) x2 := rfl

/-! ## Each stage at an index -/

theorem rowsOf_apply (x0 : Vec Ideal S1x256x512 .f32) (r : Fin 512) (c : Fin 256) :
    rowsOf x0 (ix2 r c) = x0 (ix3 (0 : Fin 1) c r) :=
  (transpose_ix2_apply _ _ r c).trans (shapeCast_1ab_ab_apply _ _ c r)

theorem nrm_apply (X : FVec Ideal S512x256 .f32) (r : Fin 512) (c : Fin 256) :
    nrm X (ix2 r c) = unit wEps (fun k => X (ix2 r k)) c := by
  unfold nrm unit
  refine congrArg (Ideal.div (X (ix2 r c))) ?_
  refine (bcastCol_apply _ broadcasts_S512x1_S512x256 r c).trans ?_
  refine congrArg (fun z => max (Ideal.sqrt z) wEps) ?_
  exact (castCol_apply _ shapeCasts_S512_S512x1 r).trans (laneSum_apply (mulf X X) reduces_S512x256_S512 (.inl rfl) rfl r)

/-- The first product's operand indices: the left operand's row is the result's row, the right operand's row the
    result's column, and both are read at the contracted coordinate. -/
theorem dot1_lhs0 (i : S512x2000.Idx) (q : dot_S512x256_S2000x256_S512x2000_1_1_0_0_n_n.contr.Idx) : (dot_S512x256_S2000x256_S512x2000_1_1_0_0_n_n.lhsIdx i q 0).val = (i 0).val := by
  unfold DotDims.lhsIdx
  rw [dif_neg (show ¬(0 : Fin S512x256.rank) ∈ dot_S512x256_S2000x256_S512x2000_1_1_0_0_n_n.lhsBatch by decide), dif_pos (show (0 : Fin S512x256.rank) ∈ dot_S512x256_S2000x256_S512x2000_1_1_0_0_n_n.lhsNonContracting by decide)]
  rfl
theorem dot1_lhs1 (i : S512x2000.Idx) (q : dot_S512x256_S2000x256_S512x2000_1_1_0_0_n_n.contr.Idx) : (dot_S512x256_S2000x256_S512x2000_1_1_0_0_n_n.lhsIdx i q 1).val = (q ⟨0, by decide⟩).val :=
  dot_S512x256_S2000x256_S512x2000_1_1_0_0_n_n.lhsIdx_val_of_single rfl i q
theorem dot1_rhs0 (i : S512x2000.Idx) (q : dot_S512x256_S2000x256_S512x2000_1_1_0_0_n_n.contr.Idx) : (dot_S512x256_S2000x256_S512x2000_1_1_0_0_n_n.rhsIdx i q 0).val = (i 1).val := by
  unfold DotDims.rhsIdx
  rw [dif_neg (show ¬(0 : Fin S2000x256.rank) ∈ dot_S512x256_S2000x256_S512x2000_1_1_0_0_n_n.rhsBatch by decide), dif_pos (show (0 : Fin S2000x256.rank) ∈ dot_S512x256_S2000x256_S512x2000_1_1_0_0_n_n.rhsNonContracting by decide)]
  rfl
theorem dot1_rhs1 (i : S512x2000.Idx) (q : dot_S512x256_S2000x256_S512x2000_1_1_0_0_n_n.contr.Idx) : (dot_S512x256_S2000x256_S512x2000_1_1_0_0_n_n.rhsIdx i q 1).val = (q ⟨0, by decide⟩).val :=
  dot_S512x256_S2000x256_S512x2000_1_1_0_0_n_n.rhsIdx_val_of_single rfl i q

theorem logits_apply (Z : FVec Ideal S512x256 .f32) (x1 : Vec Ideal S2000x256 .f32) (r : Fin 512) (j : Fin 2000) :
    logits Z x1 (ix2 r j) = logit (fun c => Z (ix2 r c)) (fun j c => x1 (ix2 j c)) j := by
  unfold logits logit
  simp only [matmul]
  rw [Ideal.matmul_constant_zero_apply, ← Equiv.sum_comp (contrEquiv1 dot_S512x256_S2000x256_S512x2000_1_1_0_0_n_n 256 rfl rfl).symm]
  refine Finset.sum_congr rfl fun k _ => ?_
  have hk := contrEquiv1_symm_val dot_S512x256_S2000x256_S512x2000_1_1_0_0_n_n 256 rfl rfl k
  have el : dot_S512x256_S2000x256_S512x2000_1_1_0_0_n_n.lhsIdx (ix2 r j) ((contrEquiv1 dot_S512x256_S2000x256_S512x2000_1_1_0_0_n_n 256 rfl rfl).symm k) = ix2 r k := funext fun a => Fin.ext (by
    match a with
    | ⟨0, _⟩ => exact dot1_lhs0 _ _
    | ⟨1, _⟩ => exact (dot1_lhs1 _ _).trans hk)
  have er : dot_S512x256_S2000x256_S512x2000_1_1_0_0_n_n.rhsIdx (ix2 r j) ((contrEquiv1 dot_S512x256_S2000x256_S512x2000_1_1_0_0_n_n 256 rfl rfl).symm k) = ix2 j k := funext fun a => Fin.ext (by
    match a with
    | ⟨0, _⟩ => exact dot1_rhs0 _ _
    | ⟨1, _⟩ => exact (dot1_rhs1 _ _).trans hk)
  rw [el, er, shapeCast_self]

theorem expShift_apply (S : FVec Ideal S512x2000 .f32) (r : Fin 512) (k : Fin 2000) :
    expShift S (ix2 r k) = expo wLo (fun k => S (ix2 r k)) k := by
  unfold expShift expo
  refine congrArg (fun z => Ideal.exp (S (ix2 r k) - z)) ?_
  exact (bcastCol_apply _ broadcasts_S512x1_S512x2000 r k).trans ((castCol_apply _ shapeCasts_S512_S512x1 r).trans
    (laneMax_apply S 0xFF800000#32 reduces_S512x2000_S512 (.inl rfl) rfl r))

theorem soft_apply (S : FVec Ideal S512x2000 .f32) (r : Fin 512) (j : Fin 2000) :
    soft S (ix2 r j) = softP wLo (fun k => S (ix2 r k)) j := by
  have hs : (∑ k : Fin 2000, expShift S (ix2 r k)) = ∑ k : Fin 2000, expo wLo (fun k => S (ix2 r k)) k :=
    Finset.sum_congr rfl fun k _ => expShift_apply S r k
  unfold soft softP
  refine congrArg₂ (· * ·) (expShift_apply S r j) ?_
  refine (bcastCol_apply _ broadcasts_S512x1_S512x2000 r j).trans ?_
  show Ideal.div (Ideal.ofBits .f32 0x3F800000#32) _ = Ideal.div 1 _
  rw [Ideal.ofBits_one_f32]
  refine congrArg (Ideal.div 1) ?_
  exact ((castCol_apply _ shapeCasts_S512_S512x1 r).trans (laneSum_apply (expShift S) reduces_S512x2000_S512 (.inl rfl) rfl r)).trans hs

theorem shr_apply (W : FVec Ideal S512x2000 .f32) (i : S512x2000.Idx) : shr W i = shrink wThr wTiny (W i) := by
  unfold shr shrink
  show Ideal.div (max (W i - wThr) (Ideal.ofBits .f32 0x00000000#32) * W i) (max (W i - wThr) (-(W i - wThr)) + wTiny) = _
  rw [Ideal.ofBits_zero_f32]

theorem l1_apply (V : FVec Ideal S512x2000 .f32) (r : Fin 512) (j : Fin 2000) :
    l1 V (ix2 r j) = l1P wFloor (fun k => V (ix2 r k)) j := by
  unfold l1 l1P
  refine congrArg (V (ix2 r j) * ·) ?_
  refine (bcastCol_apply _ broadcasts_S512x1_S512x2000 r j).trans ?_
  show Ideal.div (Ideal.ofBits .f32 0x3F800000#32) (max _ wFloor) = Ideal.div 1 (max _ wFloor)
  rw [Ideal.ofBits_one_f32]
  refine congrArg (fun z => Ideal.div 1 (max z wFloor)) ?_
  exact (castCol_apply _ shapeCasts_S512_S512x1 r).trans (laneSum_apply (absf V) reduces_S512x2000_S512 (.inl rfl) rfl r)

/-- THE WEIGHTS of position `r` of the tile: the addressing weights, reciprocals multiplied in, of the position's
    channels against the already scaled memory rows. -/
theorem weights_apply (x0 : Vec Ideal S1x256x512 .f32) (x1 : Vec Ideal S2000x256 .f32) (r : Fin 512) (j : Fin 2000) :
    weights x0 x1 (ix2 r j)
      = weightsP wLo wThr wTiny wFloor
          (logit (unit wEps (fun c => x0 (ix3 (0 : Fin 1) c r))) (fun j c => x1 (ix2 j c))) j := by
  unfold weights weightsP
  rw [l1_apply]
  refine congrArg (fun v => l1P wFloor v j) (funext fun k => ?_)
  rw [shr_apply, soft_apply]
  refine congrArg (fun s => shrink wThr wTiny (softP wLo s k)) (funext fun k' => ?_)
  rw [logits_apply]
  refine congrArg (fun a => logit a (fun j c => x1 (ix2 j c)) k') (funext fun c => ?_)
  rw [nrm_apply]
  exact congrArg (fun x => unit wEps x c) (funext fun c' => rowsOf_apply x0 r c')

/-- The second product's operand indices. -/
theorem dot2_lhs0 (i : S512x256.Idx) (q : dot_S512x2000_S2000x256_S512x256_1_0_0_1_n_n.contr.Idx) : (dot_S512x2000_S2000x256_S512x256_1_0_0_1_n_n.lhsIdx i q 0).val = (i 0).val := by
  unfold DotDims.lhsIdx
  rw [dif_neg (show ¬(0 : Fin S512x2000.rank) ∈ dot_S512x2000_S2000x256_S512x256_1_0_0_1_n_n.lhsBatch by decide), dif_pos (show (0 : Fin S512x2000.rank) ∈ dot_S512x2000_S2000x256_S512x256_1_0_0_1_n_n.lhsNonContracting by decide)]
  rfl
theorem dot2_lhs1 (i : S512x256.Idx) (q : dot_S512x2000_S2000x256_S512x256_1_0_0_1_n_n.contr.Idx) : (dot_S512x2000_S2000x256_S512x256_1_0_0_1_n_n.lhsIdx i q 1).val = (q ⟨0, by decide⟩).val :=
  dot_S512x2000_S2000x256_S512x256_1_0_0_1_n_n.lhsIdx_val_of_single rfl i q
theorem dot2_rhs0 (i : S512x256.Idx) (q : dot_S512x2000_S2000x256_S512x256_1_0_0_1_n_n.contr.Idx) : (dot_S512x2000_S2000x256_S512x256_1_0_0_1_n_n.rhsIdx i q 0).val = (q ⟨0, by decide⟩).val :=
  dot_S512x2000_S2000x256_S512x256_1_0_0_1_n_n.rhsIdx_val_of_single rfl i q
theorem dot2_rhs1 (i : S512x256.Idx) (q : dot_S512x2000_S2000x256_S512x256_1_0_0_1_n_n.contr.Idx) : (dot_S512x2000_S2000x256_S512x256_1_0_0_1_n_n.rhsIdx i q 1).val = (i 1).val := by
  unfold DotDims.rhsIdx
  rw [dif_neg (show ¬(1 : Fin S2000x256.rank) ∈ dot_S512x2000_S2000x256_S512x256_1_0_0_1_n_n.rhsBatch by decide), dif_pos (show (1 : Fin S2000x256.rank) ∈ dot_S512x2000_S2000x256_S512x256_1_0_0_1_n_n.rhsNonContracting by decide)]
  rfl

/-- THE READ-OUT at channel `c` of position `r`: the memory's column `c` weighted by the position's weights. -/
theorem readOut_apply (Wt : FVec Ideal S512x2000 .f32) (x2 : Vec Ideal S2000x256 .bf16) (u : Fin 1) (c : Fin 256) (r : Fin 512) :
    readOut Wt x2 (ix3 u c r) = ∑ j : Fin 2000, Wt (ix2 r j) * (x2 (ix2 j c) : EReal) := by
  unfold readOut
  rw [shapeCast_ab_1ab_apply, transpose_ix2_apply]
  simp only [matmul]
  rw [Ideal.matmul_constant_zero_apply, ← Equiv.sum_comp (contrEquiv1 dot_S512x2000_S2000x256_S512x256_1_0_0_1_n_n 2000 rfl rfl).symm]
  refine Finset.sum_congr rfl fun k _ => ?_
  have hk := contrEquiv1_symm_val dot_S512x2000_S2000x256_S512x256_1_0_0_1_n_n 2000 rfl rfl k
  have el : dot_S512x2000_S2000x256_S512x256_1_0_0_1_n_n.lhsIdx (ix2 r c) ((contrEquiv1 dot_S512x2000_S2000x256_S512x256_1_0_0_1_n_n 2000 rfl rfl).symm k) = ix2 r k := funext fun a => Fin.ext (by
    match a with
    | ⟨0, _⟩ => exact dot2_lhs0 _ _
    | ⟨1, _⟩ => exact (dot2_lhs1 _ _).trans hk)
  have er : dot_S512x2000_S2000x256_S512x256_1_0_0_1_n_n.rhsIdx (ix2 r c) ((contrEquiv1 dot_S512x2000_S2000x256_S512x256_1_0_0_1_n_n 2000 rfl rfl).symm k) = ix2 k c := funext fun a => Fin.ext (by
    match a with
    | ⟨0, _⟩ => exact (dot2_rhs0 _ _).trans hk
    | ⟨1, _⟩ => exact dot2_rhs1 _ _)
  rw [el, er, shapeCast_self]
  rfl

end Cert.KernelIdeal.Body

end
-- ==== Proof.Layout.lean ====
/-
  The two results as functions of the two arguments, index by index, and the layout that joins them.

  The input `z` is `[8, 256, 4, 32, 32]`: batch, channel, then three spatial axes. A POSITION is a batch entry and a
  spatial site; there are `8 · 4 · 32 · 32 = 32768` of them, numbered row-major: `t = ((n·4 + d)·32 + h)·32 + w`.
  Position `t` reads the 256 channel entries `z[n, k, d, h, w]`. Its addressing weights over the 2000 memory rows
  are row `t` of the first result `[32768, 2000]`; its read-out, the memory's rows weighted by those weights, is
  written back channel-major: entry `[n, c, d, h, w]` of the second result is channel `c` of the read-out of
  position `(n, d, h, w)`.
-/
import Idealize.ShloMosaic.Lib.ValueIdx
import proofs.«100196_j25701084299676_2_alg».proof.Proof.Rows

noncomputable section

open scoped BigOperators

namespace Cert.MemRead

open Idealize.ShloMosaic Idealize.ShloMosaic.ValueIdx

abbrev SZ : Shape := ⟨5, ![8, 256, 4, 32, 32]⟩
abbrev SM : Shape := ⟨2, ![2000, 256]⟩
abbrev SW : Shape := ⟨2, ![32768, 2000]⟩

/-- The number of the position at batch entry `n` and site `(d, h, w)`. -/
def posOf (n : Fin 8) (d : Fin 4) (h w : Fin 32) : Fin 32768 :=
  ⟨((n.val * 4 + d.val) * 32 + h.val) * 32 + w.val, by have := n.isLt; have := d.isLt; have := h.isLt; have := w.isLt; omega⟩

/-- Where channel `k` of position `t` sits in `z`. -/
def chan (t : Fin 32768) (k : Fin 256) : SZ.Idx :=
  ix5 (⟨t.val / 4096, by have := t.isLt; omega⟩ : Fin 8) k (⟨t.val / 1024 % 4, by omega⟩ : Fin 4)
    (⟨t.val / 32 % 32, by omega⟩ : Fin 32) (⟨t.val % 32, by omega⟩ : Fin 32)

theorem chan_posOf (n : Fin 8) (d : Fin 4) (h w : Fin 32) (k : Fin 256) : chan (posOf n d h w) k = ix5 n k d h w := by
  have := n.isLt; have := d.isLt; have := h.isLt; have := w.isLt
  unfold chan posOf
  congr 1 <;> apply Fin.ext <;> dsimp only <;> omega

/-- The memory as rows. -/
def rowsM (mem : SM.Idx → EReal) (j : Fin 2000) (k : Fin 256) : EReal := mem (ix2 j k)

/-- THE FIRST RESULT: row `t` holds position `t`'s addressing weights. -/
def GW (z : SZ.Idx → EReal) (mem : SM.Idx → EReal) : SW.Idx → EReal :=
  fun i => addr (fun k => z (chan (i 0) k)) (rowsM mem) (i 1)

/-- THE SECOND RESULT: entry `[n, c, d, h, w]` holds channel `c` of the read-out of position `(n, d, h, w)`. -/
def GZ (z : SZ.Idx → EReal) (mem : SM.Idx → EReal) : SZ.Idx → EReal :=
  fun i => recall (addr (fun k => z (chan (posOf (i 0) (i 2) (i 3) (i 4)) k)) (rowsM mem)) (rowsM mem) (i 1)

end Cert.MemRead

end
-- ==== Proof.Tile.lean ====
/-
  From tiles to whole arrays: the kernel's two result arrays after the run, as functions of what the region finds.

  The grid has 64 points; point `t` works on batch entry `t / 8` and on the 512 spatial sites `(t % 8)·512 …` of it,
  which are positions `512·t … 512·t + 511`. It reads the channel-major block `[1, 256, 512]` of `z` (reshaped to
  `[8, 256, 4096]` by the host) and the whole scaled memory and memory, and writes back rows `512·t …` of the weights
  and the matching channel-major block of the read-out. The 64 blocks of each result tile it, so each result array is
  one function of the region-entry arrays; a host reshape then re-lays the read-out to `[8, 256, 4, 32, 32]`.
-/
import proofs.«100196_j25701084299676_2_alg».proof.Defs
import proofs.«100196_j25701084299676_2_alg».proof.Proof.Gen.KernelIdeal.Frame
import proofs.«100196_j25701084299676_2_alg».proof.Proof.Gen.ReferenceIdeal.Read
import Idealize.ShloMosaic.Lib.StableHlo.Run
import Idealize.ShloMosaic.Lib.Pipeline.Value
import Idealize.ShloMosaic.Lib.ValueLayout
import Idealize.ShloMosaic.Lib.Tactic
import proofs.«100196_j25701084299676_2_alg».proof.Proof.Body
import proofs.«100196_j25701084299676_2_alg».proof.Proof.Layout

set_option maxRecDepth 16384

noncomputable section

open scoped BigOperators

namespace Cert.KernelIdeal.Tile

open Idealize.ShloMosaic Idealize.ShloMosaic.TcCoe Idealize.SL.Sem Idealize.ShloMosaic.StableHlo
open Idealize.ShloMosaic.ValueIdx
open Idealize.ShloMosaic.Pipeline (Dat)
open Cert.KernelIdeal Cert.KernelIdeal.Gen Cert.KernelIdeal.Body Cert.MemRead

variable (m : (ℓ : Loc nD τ sig) → Buf (Elt Ideal) ℓ) (ρ : Dev nD → PrngReg)

/-! ## What the region finds -/

/-- The first operand: `z` reshaped to `[8, 256, 4096]`. -/
theorem V_z (c : Dev nD) : (V m c main_v0 : S8x256x4096.Idx → EReal)
    = shapeCast S8x256x4096 (m ((c : Thread nD τ).loc main_arg0) : S8x256x4x32x32.Idx → EReal) shapeCasts_S8x256x4x32x32_S8x256x4096 := by
  dsimp only [V, V0]
  simp only [hostOps0, hostOps0_1, hostOps0_2, List.flatten_cons, List.flatten_nil, List.append_nil, List.cons_append, List.nil_append]
  after_results
  rfl

/-- The second operand: the memory's rows scaled to unit length, by the very operations the reference applies. -/
theorem V_mn (c : Dev nD) : (V m c main_v5 : S2000x256.Idx → EReal)
    = Cert.ReferenceIdeal.Read.val_main_v11 (F := Ideal) (m ((c : Thread nD τ).loc main_arg1)) := by
  dsimp only [V, V0]
  simp only [hostOps0, hostOps0_1, hostOps0_2, List.flatten_cons, List.flatten_nil, List.append_nil, List.cons_append, List.nil_append]
  after_results
  rfl

/-- The third operand: the memory itself (its change of format is the identity). -/
theorem V_mem (c : Dev nD) : (V m c main_v6 : S2000x256.Idx → EReal)
    = (m ((c : Thread nD τ).loc main_arg1) : S2000x256.Idx → EReal) := by
  dsimp only [V, V0]
  simp only [hostOps0, hostOps0_1, hostOps0_2, List.flatten_cons, List.flatten_nil, List.append_nil, List.cons_append, List.nil_append]
  after_results
  rfl

/-! ## The index maps, decided over the grid -/

theorem idx_facts : ∀ t : Fin cfg0.N,
    win0_0.index t (0 : Fin 3) = t.val / 8 ∧ win0_0.index t (1 : Fin 3) = 0 ∧ win0_0.index t (2 : Fin 3) = t.val % 8
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 3) = t.val / 8 ∧ win0_4.index t (1 : Fin 3) = 0 ∧ win0_4.index t (2 : Fin 3) = t.val % 8 :=
  (by decide +kernel : ∀ t : Fin grid0.N, _)

theorem hz2 : (![0, 0] : Fin 2 → Nat) = fun _ => 0 := funext fun a => by fin_cases a <;> rfl
theorem hz3 : (![0, 0, 0] : Fin 3 → Nat) = fun _ => 0 := funext fun a => by fin_cases a <;> rfl

theorem lt64 (t : Fin cfg0.N) : t.val < 64 := by
  have h : t.val < cfg0.N := t.isLt
  have e : cfg0.N = 64 := N_0
  omega

/-! ## The whole-array functions -/

theorem ix3_congr {n0 n1 n2 : Nat} {a a' : Fin n0} {b b' : Fin n1} {c c' : Fin n2} (ha : a = a') (hb : b = b') (hc : c = c') :
    (ix3 a b c : (⟨3, ![n0, n1, n2]⟩ : Shape).Idx) = ix3 a' b' c' := by subst ha hb hc; rfl

/-- The weights of the position at batch entry `n`, site `p`. -/
def kwRow (Z : S8x256x4096.Idx → EReal) (Mn : S2000x256.Idx → EReal) (n : Fin 8) (p : Fin 4096) : Fin 2000 → EReal :=
  weightsP wLo wThr wTiny wFloor (logit (unit wEps (fun k => Z (ix3 n k p))) (fun j k => Mn (ix2 j k)))

/-- The weights array: row `t` is the position at batch entry `t / 4096`, site `t % 4096`. -/
def KW (Z : S8x256x4096.Idx → EReal) (Mn : S2000x256.Idx → EReal) : S32768x2000.Idx → EReal := fun i =>
  kwRow Z Mn ⟨(i 0).val / 4096, by have h : (i 0).val < 32768 := (i 0).isLt; omega⟩ ⟨(i 0).val % 4096, by omega⟩ (i 1)

/-- The read-out array, channel-major. -/
def KZ (Z : S8x256x4096.Idx → EReal) (Mn Mem : S2000x256.Idx → EReal) : S8x256x4096.Idx → EReal := fun i =>
  ∑ j : Fin 2000, kwRow Z Mn (i 0) (i 2) j * Mem (ix2 j (i 1))

/-! ## One tile -/

/-- A tile's weights are rows of the weights array, when the tile's blocks are blocks of the operands. -/
theorem tile_weights (x0 : Vec Ideal S1x256x512 .f32) (x1 : Vec Ideal S2000x256 .f32)
    (Z : S8x256x4096.Idx → EReal) (Mn : S2000x256.Idx → EReal) (q : Nat) (hq : q < 64)
    (h0 : ∀ (k : Fin 256) (r : Fin 512), x0 (ix3 (0 : Fin 1) k r) = Z (ix3 ⟨q / 8, by omega⟩ k ⟨q % 8 * 512 + r.val, by have := r.isLt; omega⟩))
    (h1 : ∀ i, x1 i = Mn i) (y : S512x2000.Idx) (i : S32768x2000.Idx)
    (hi0 : (i 0).val = q * 512 + (y 0).val) (hi1 : (i 1).val = (y 1).val) :
    weights x0 x1 y = KW Z Mn i := by
  obtain ⟨r, j, rfl⟩ : ∃ (r : Fin 512) (j : Fin 2000), y = ix2 r j := ⟨y 0, y 1, eq_ix2 y⟩
  obtain ⟨t, j', rfl⟩ : ∃ (t : Fin 32768) (j' : Fin 2000), i = ix2 t j' := ⟨i 0, i 1, eq_ix2 i⟩
  have hr := r.isLt
  have ht : t.val = q * 512 + r.val := hi0
  obtain rfl : j' = j := Fin.ext hi1
  rw [weights_apply]
  show _ = kwRow Z Mn ⟨t.val / 4096, _⟩ ⟨t.val % 4096, _⟩ j'
  unfold kwRow
  have hrow : (fun k => x0 (ix3 (0 : Fin 1) k r)) = fun k => Z (ix3 (⟨t.val / 4096, by have := t.isLt; omega⟩ : Fin 8) k (⟨t.val % 4096, by omega⟩ : Fin 4096)) :=
    funext fun k => (h0 k r).trans (congrArg Z (ix3_congr (Fin.ext (by show q / 8 = t.val / 4096; omega)) rfl
      (Fin.ext (by show q % 8 * 512 + r.val = t.val % 4096; omega))))
  have hmn : (fun j k => x1 (ix2 j k)) = fun j k => Mn (ix2 j k) := funext fun j => funext fun k => h1 _
  rw [hrow, hmn]

/-- A tile's read-out is a block of the read-out array. -/
theorem tile_readout (x0 : Vec Ideal S1x256x512 .f32) (x1 : Vec Ideal S2000x256 .f32) (x2 : Vec Ideal S2000x256 .bf16)
    (Z : S8x256x4096.Idx → EReal) (Mn Mem : S2000x256.Idx → EReal) (q : Nat) (hq : q < 64)
    (h0 : ∀ (k : Fin 256) (r : Fin 512), x0 (ix3 (0 : Fin 1) k r) = Z (ix3 ⟨q / 8, by omega⟩ k ⟨q % 8 * 512 + r.val, by have := r.isLt; omega⟩))
    (h1 : ∀ i, x1 i = Mn i) (h2 : ∀ i, (x2 i : EReal) = Mem i) (y : S1x256x512.Idx) (i : S8x256x4096.Idx)
    (hi0 : (i 0).val = q / 8) (hi1 : (i 1).val = (y 1).val) (hi2 : (i 2).val = q % 8 * 512 + (y 2).val) :
    readOut (weights x0 x1) x2 y = KZ Z Mn Mem i := by
  obtain ⟨u, c, r, rfl⟩ : ∃ (u : Fin 1) (c : Fin 256) (r : Fin 512), y = ix3 u c r := ⟨y 0, y 1, y 2, eq_ix3 y⟩
  obtain ⟨n, c', p, rfl⟩ : ∃ (n : Fin 8) (c' : Fin 256) (p : Fin 4096), i = ix3 n c' p := ⟨i 0, i 1, i 2, eq_ix3 i⟩
  have hn : n.val = q / 8 := hi0
  obtain rfl : c' = c := Fin.ext hi1
  have hp : p.val = q % 8 * 512 + r.val := hi2
  rw [readOut_apply]
  show _ = ∑ j : Fin 2000, kwRow Z Mn n p j * Mem (ix2 j c')
  refine Finset.sum_congr rfl fun j _ => ?_
  rw [weights_apply, h2]
  unfold kwRow
  have hrow : (fun k => x0 (ix3 (0 : Fin 1) k r)) = fun k => Z (ix3 n k p) :=
    funext fun k => (h0 k r).trans (congrArg Z (ix3_congr (Fin.ext hn.symm) rfl (Fin.ext hp.symm)))
  have hmn : (fun j k => x1 (ix2 j k)) = fun j k => Mn (ix2 j k) := funext fun j => funext fun k => h1 _
  rw [hrow, hmn]

/-! ## The tile's operands are blocks of what the region finds -/

theorem iblk0_apply (c : Dev nD) (t : Fin cfg0.N) (k : Fin 256) (r : Fin 512) :
    (iblk m c 0 t : Vec Ideal S1x256x512 .f32) (ix3 (0 : Fin 1) k r)
      = V m c main_v0 (ix3 ⟨t.val / 8, by have := lt64 t; omega⟩ k ⟨t.val % 8 * 512 + r.val, by have := r.isLt; omega⟩) := by
  obtain ⟨e0, e1, e2, -⟩ := idx_facts t
  unfold iblk
  rw [View.read_apply]
  show V m c main_v0 _ = V m c main_v0 _
  congr 1
  funext a
  apply Fin.ext
  match a with
  | ⟨0, _⟩ => show win0_0.index t 0 * 1 + 1 * 0 = t.val / 8; rw [e0]; omega
  | ⟨1, _⟩ => show win0_0.index t 1 * 256 + 1 * k.val = k.val; rw [e1]; omega
  | ⟨2, _⟩ => show win0_0.index t 2 * 512 + 1 * r.val = t.val % 8 * 512 + r.val; rw [e2]; omega

theorem iblk1_apply (c : Dev nD) (t : Fin cfg0.N) (y : S2000x256.Idx) :
    (iblk m c 1 t : Vec Ideal S2000x256 .f32) y = V m c main_v5 y := by
  obtain ⟨-, -, -, e0, e1, -⟩ := idx_facts t
  unfold iblk
  rw [View.read_apply]
  show V m c main_v5 _ = V m c main_v5 _
  congr 1
  funext a
  apply Fin.ext
  match a with
  | ⟨0, _⟩ => show win0_1.index t 0 * 2000 + 1 * (y 0).val = (y 0).val; rw [e0]; omega
  | ⟨1, _⟩ => show win0_1.index t 1 * 256 + 1 * (y 1).val = (y 1).val; rw [e1]; omega

theorem iblk2_apply (c : Dev nD) (t : Fin cfg0.N) (y : S2000x256.Idx) :
    ((iblk m c 2 t : Vec Ideal S2000x256 .bf16) y : EReal) = V m c main_v6 y := by
  obtain ⟨-, -, -, -, -, e0, e1, -⟩ := idx_facts t
  unfold iblk
  rw [View.read_apply]
  show V m c main_v6 _ = V m c main_v6 _
  congr 1
  funext a
  apply Fin.ext
  match a with
  | ⟨0, _⟩ => show win0_2.index t 0 * 2000 + 1 * (y 0).val = (y 0).val; rw [e0]; omega
  | ⟨1, _⟩ => show win0_2.index t 1 * 256 + 1 * (y 1).val = (y 1).val; rw [e1]; omega

/-! ## What each point writes back, the cover, and the arrays after the run -/

theorem flushed3_eq (c : Dev nD) (t : Fin cfg0.N) :
    (dats m 0 c).flushed 3 t = ((cfg0.win 3).blk t).view.read (Elt Ideal) (KW (V m c main_v0) (V m c main_v5)) := by
  obtain ⟨-, -, -, -, -, -, -, e0, e1, -⟩ := idx_facts t
  show (cfg0.win 3).cut (grid0.coords t) ((dats m 0 c).after 3 t) = _
  rw [after0_3]
  unfold out0_3
  rw [View.canon_unit_zero hz2]
  simp only [View.ld_unit_zero (S := S1x256x512) hz3, View.ld_unit_zero (S := S2000x256) hz2]
  funext y
  rw [View.read_apply]
  refine (congrFun (pay1_eq (iblk m c 0 t) (iblk m c 1 t)) y).trans ?_
  refine tile_weights (iblk m c 0 t) (iblk m c 1 t) (V m c main_v0) (V m c main_v5) t.val (lt64 t)
    (iblk0_apply m c t) (iblk1_apply m c t) y _ ?_ ?_
  · show win0_3.index t 0 * 512 + 1 * (y 0).val = t.val * 512 + (y 0).val; rw [e0]; omega
  · show win0_3.index t 1 * 2000 + 1 * (y 1).val = (y 1).val; rw [e1]; omega

theorem flushed4_eq (c : Dev nD) (t : Fin cfg0.N) :
    (dats m 0 c).flushed 4 t
      = ((cfg0.win 4).blk t).view.read (Elt Ideal) (KZ (V m c main_v0) (V m c main_v5) (V m c main_v6)) := by
  obtain ⟨-, -, -, -, -, -, -, -, -, e0, e1, e2⟩ := idx_facts t
  show (cfg0.win 4).cut (grid0.coords t) ((dats m 0 c).after 4 t) = _
  rw [after0_4]
  unfold out0_4
  rw [View.canon_unit_zero hz3]
  simp only [View.ld_unit_zero (S := S1x256x512) hz3, View.ld_unit_zero (S := S2000x256) hz2]
  funext y
  rw [View.read_apply]
  refine (congrFun (pay2_eq (iblk m c 0 t) (iblk m c 1 t) (iblk m c 2 t)) y).trans ?_
  refine tile_readout (iblk m c 0 t) (iblk m c 1 t) (iblk m c 2 t) (V m c main_v0) (V m c main_v5) (V m c main_v6) t.val (lt64 t)
    (iblk0_apply m c t) (iblk1_apply m c t) (iblk2_apply m c t) y _ ?_ ?_ ?_
  · show win0_4.index t 0 * 1 + 1 * (y 0).val = t.val / 8; rw [e0]; have hy : (y 0).val < 1 := (y 0).isLt; omega
  · show win0_4.index t 1 * 256 + 1 * (y 1).val = (y 1).val; rw [e1]; omega
  · show win0_4.index t 2 * 512 + 1 * (y 2).val = t.val % 8 * 512 + (y 2).val; rw [e2]; omega

theorem mem_blk3 (t : Fin cfg0.N) (i : S32768x2000.Idx) :
    i ∈ ((cfg0.win 3).blk t).view.set ↔ ∀ a : Fin 2, win0_3.index t a * S512x2000.size a ≤ (i a).val ∧ (i a).val < win0_3.index t a * S512x2000.size a + S512x2000.size a := by
  show i ∈ ((View.whole main_v7_0).slice (win0_3.rect t)).set ↔ _
  rw [View.set_slice_whole, Rect.mem_set_unit]
  exact Iff.rfl

theorem mem_blk4 (t : Fin cfg0.N) (i : S8x256x4096.Idx) :
    i ∈ ((cfg0.win 4).blk t).view.set ↔ ∀ a : Fin 3, win0_4.index t a * S1x256x512.size a ≤ (i a).val ∧ (i a).val < win0_4.index t a * S1x256x512.size a + S1x256x512.size a := by
  show i ∈ ((View.whole main_v7_1).slice (win0_4.rect t)).set ↔ _
  rw [View.set_slice_whole, Rect.mem_set_unit]
  exact Iff.rfl

/-- Row `i 0` of the weights array is in the block of point `(i 0) / 512`. -/
theorem cover3 (i : S32768x2000.Idx) : ∃ t : Fin cfg0.N, (cfg0.win 3).flush t = true ∧ i ∈ ((cfg0.win 3).blk t).view.set := by
  have h0 : (i 0).val < 32768 := (i 0).isLt
  have h1 : (i 1).val < 2000 := (i 1).isLt
  let t : Fin cfg0.N := ⟨(i 0).val / 512, by rw [show cfg0.N = 64 from N_0]; omega⟩
  have htv : t.val = (i 0).val / 512 := rfl
  obtain ⟨-, -, -, -, -, -, -, e0, e1, -⟩ := idx_facts t
  refine ⟨t, flush0_3 t, ?_⟩
  rw [mem_blk3]
  intro a
  match a with
  | ⟨0, _⟩ => show win0_3.index t 0 * 512 ≤ (i 0).val ∧ (i 0).val < win0_3.index t 0 * 512 + 512; rw [e0, htv]; omega
  | ⟨1, _⟩ => show win0_3.index t 1 * 2000 ≤ (i 1).val ∧ (i 1).val < win0_3.index t 1 * 2000 + 2000; rw [e1]; omega

/-- Entry `(n, c, p)` of the read-out array is in the block of point `8·n + p / 512`. -/
theorem cover4 (i : S8x256x4096.Idx) : ∃ t : Fin cfg0.N, (cfg0.win 4).flush t = true ∧ i ∈ ((cfg0.win 4).blk t).view.set := by
  have h0 : (i 0).val < 8 := (i 0).isLt
  have h1 : (i 1).val < 256 := (i 1).isLt
  have h2 : (i 2).val < 4096 := (i 2).isLt
  let t : Fin cfg0.N := ⟨(i 0).val * 8 + (i 2).val / 512, by rw [show cfg0.N = 64 from N_0]; omega⟩
  have htv : t.val = (i 0).val * 8 + (i 2).val / 512 := rfl
  obtain ⟨-, -, -, -, -, -, -, -, -, e0, e1, e2⟩ := idx_facts t
  refine ⟨t, flush0_4 t, ?_⟩
  rw [mem_blk4]
  intro a
  match a with
  | ⟨0, _⟩ => show win0_4.index t 0 * 1 ≤ (i 0).val ∧ (i 0).val < win0_4.index t 0 * 1 + 1; rw [e0, htv]; omega
  | ⟨1, _⟩ => show win0_4.index t 1 * 256 ≤ (i 1).val ∧ (i 1).val < win0_4.index t 1 * 256 + 256; rw [e1]; omega
  | ⟨2, _⟩ => show win0_4.index t 2 * 512 ≤ (i 2).val ∧ (i 2).val < win0_4.index t 2 * 512 + 512; rw [e2, htv]; omega

theorem final3 (c : Dev nD) : (dats m 0 c).arrAt 3 cfg0.N = KW (V m c main_v0) (V m c main_v5) :=
  (dats m 0 c).arrAt_eq_of_cover 3 (KW (V m c main_v0) (V m c main_v5)) (fun t _ => flushed3_eq m c t) cover3

theorem final4 (c : Dev nD) : (dats m 0 c).arrAt 4 cfg0.N = KZ (V m c main_v0) (V m c main_v5) (V m c main_v6) :=
  (dats m 0 c).arrAt_eq_of_cover 4 (KZ (V m c main_v0) (V m c main_v5) (V m c main_v6)) (fun t _ => flushed4_eq m c t) cover4

end Cert.KernelIdeal.Tile

end
-- ==== Proof.KernelRun.lean ====
/-
  The kernel's run, read: after every weakly fair execution the weights array holds the weights of all positions, the
  host's reshape of the read-out array holds the read-outs channel-major, and the two arguments are as they were.

  The weights array is written by the region itself; the read-out leaves the region as `[8, 256, 4096]` and one host
  reshape after the region re-lays it, reading the region's array where the region left it.
-/
import proofs.«100196_j25701084299676_2_alg».proof.Proof.Tile

set_option maxRecDepth 16384

noncomputable section

open scoped BigOperators

namespace Cert.KernelIdeal.Tile

open Idealize.ShloMosaic Idealize.ShloMosaic.TcCoe Idealize.SL.Sem Idealize.ShloMosaic.StableHlo
open Idealize.ShloMosaic.ValueIdx
open Idealize.ShloMosaic.Pipeline (Dat)
open Cert.KernelIdeal Cert.KernelIdeal.Gen Cert.KernelIdeal.Body Cert.MemRead

variable (m : (ℓ : Loc nD τ sig) → Buf (Elt Ideal) ℓ) (ρ : Dev nD → PrngReg)

/-- The host's reshape after the region reads the read-out array as the region's write-backs left it. -/
theorem tail_v8 (c : Dev nD) : Pipeline.afterTail₀ cfgs (dats m) 0 (V0 m) [hostOps1] c main_v8
    = shapeCast S8x256x4x32x32 ((dats m 0 c).arrAt 4 cfg0.N) shapeCasts_S8x256x4096_S8x256x4x32x32 := by
  unfold Pipeline.afterTail₀
  show StableHlo.after hostOps1 _ (Proc.devRef .tc main_v8) = _
  after_results
  have e := Pipeline.withArrays_arr (cfgs 0).spec launch0.win.arr_inj c (V0 m c) (fun w => (dats m 0 c).arrAt w (cfgs 0).N) 4
  funext i
  exact congrArg (fun A : S8x256x4096.Idx → EReal => shapeCast S8x256x4x32x32 A shapeCasts_S8x256x4096_S8x256x4x32x32 i) e

/-- THE RUN: both results as functions of what the region finds, the arguments unchanged. -/
theorem run : θ_run defs (onTc (τ := τ) (main (F := Ideal))) ⟨m, fun _ => 0, ρ⟩ fun r => ∀ c : Dev nD,
      r.2.mem ((c : Thread nD τ).loc main_v8)
        = shapeCast S8x256x4x32x32 (KZ (V m c main_v0) (V m c main_v5) (V m c main_v6)) shapeCasts_S8x256x4096_S8x256x4x32x32
      ∧ r.2.mem ((c : Thread nD τ).loc main_v7_0) = KW (V m c main_v0) (V m c main_v5)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨(((h c).2 main_v8 (Pipeline.mem_restRefs_of main_v8 (by decide) (by decide))).trans (tail_v8 m c)).trans
        (congrArg (fun A : S8x256x4096.Idx → EReal => shapeCast S8x256x4x32x32 A shapeCasts_S8x256x4096_S8x256x4x32x32) (final4 m c)),
      ((h c).1 3).trans (final3 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Tile

end
-- ==== Proof.RefRows.lean ====
/-
  The reference, read at explicit coordinates, stage by stage, as the row functions of `Rows.lean`.

  The reference flattens `z` to one row of 256 channels per position, scales those rows and the memory's rows to unit
  length, takes all inner products, and normalises each position's row of 2000 logits: softmax (its maximum taken
  once more against `-∞`, which changes nothing), hard shrink, division by the clamped sum of absolute values. The
  read-out is the weights times the memory, re-laid channel-major. Every host sum starts from the zero word, which
  adds nothing.
-/
import proofs.«100196_j25701084299676_2_alg».proof.Proof.Gen.ReferenceIdeal.Read
import Idealize.ShloMosaic.Lib.ValueIdx
import Idealize.ShloMosaic.Lib.IdealHost
import Idealize.ShloMosaic.PureOps.Ideal.Laws
import Idealize.ShloMosaic.PureOps.Reduce
import proofs.«100196_j25701084299676_2_alg».proof.Proof.Layout

noncomputable section

open scoped BigOperators

namespace Cert.ReferenceIdeal.Hand

open Idealize.ShloMosaic Idealize.ShloMosaic.ValueIdx Cert.ReferenceIdeal Cert.ReferenceIdeal.Gen Cert.ReferenceIdeal.Read
open Cert.MemRead Cert.RowSoftmax

abbrev ArrZ := (⟨S8x256x4x32x32, .f32⟩ : BufTy).Contents (Elt Ideal)
abbrev ArrM := (⟨S2000x256, .f32⟩ : BufTy).Contents (Elt Ideal)

/-- Memory row `j`, scaled to unit length, at channel `c`. -/
theorem mn_apply (x1 : ArrM) (j : Fin 2000) (c : Fin 256) :
    val_main_v11 (F := Ideal) x1 (ix2 j c) = unit wEps (fun k => x1 (ix2 j k)) c := by
  have hi : ∀ k : Fin 256, idx_main_call1_v1 (idx_main_call1_v2 (idx_main_v10 (ix2 j c))) k = ix2 j k := fun k =>
    funext fun a => Fin.ext (by match a with | ⟨0, _⟩ => rfl | ⟨1, _⟩ => rfl)
  rw [val_main_v11_apply, val_main_v10_apply, val_main_v9_apply, val_main_v7_apply, val_main_call1_v2_apply,
    val_main_call1_v1_apply, val_main_v8_apply, val_main_cst_0_apply, val_main_call1_cst_apply]
  simp only [hi, val_main_call1_v0_apply]
  unfold unit
  show Ideal.div _ (max (Ideal.sqrt (Ideal.ofBits .f32 0x00000000#32 + _)) _) = _
  rw [Ideal.ofBits_zero_f32, zero_add]
  rfl

/-- The flattened input: channel `k` of position `t`. -/
def flat (x0 : ArrZ) (t : Fin 32768) (k : Fin 256) : EReal := val_main_v1 (F := Ideal) x0 (ix2 t k)

/-- It is the entry of `z` at the position's batch entry and site, channel `k`. -/
theorem flat_apply (x0 : ArrZ) (t : Fin 32768) (k : Fin 256) : flat x0 t k = x0 (chan t k) := by
  have ht := t.isLt; have hk := k.isLt
  unfold flat
  rw [val_main_v1_apply, val_main_v0_apply]
  refine congrArg x0 (funext fun a => Fin.ext ?_)
  match a with
  | ⟨0, _⟩ => show (t.val * 256 + k.val) / 1048576 = t.val / 4096; omega
  | ⟨1, _⟩ => show (t.val * 256 + k.val) % 256 = k.val; omega
  | ⟨2, _⟩ => show (t.val * 256 + k.val) / 262144 % 4 = t.val / 1024 % 4; omega
  | ⟨3, _⟩ => show (t.val * 256 + k.val) / 8192 % 32 = t.val / 32 % 32; omega
  | ⟨4, _⟩ => show (t.val * 256 + k.val) / 256 % 32 = t.val % 32; omega

/-- Position `t`'s row, scaled to unit length, at channel `c`. -/
theorem zn_apply (x0 : ArrZ) (t : Fin 32768) (c : Fin 256) :
    val_main_v6 (F := Ideal) x0 (ix2 t c) = unit wEps (flat x0 t) c := by
  have hi : ∀ k : Fin 256, idx_main_call0_v1 (idx_main_call0_v2 (idx_main_v5 (ix2 t c))) k = ix2 t k := fun k =>
    funext fun a => Fin.ext (by match a with | ⟨0, _⟩ => rfl | ⟨1, _⟩ => rfl)
  rw [val_main_v6_apply, val_main_v5_apply, val_main_v4_apply, val_main_v2_apply, val_main_call0_v2_apply,
    val_main_call0_v1_apply, val_main_v3_apply, val_main_cst_apply, val_main_call0_cst_apply]
  simp only [hi, val_main_call0_v0_apply]
  unfold unit flat
  show Ideal.div _ (max (Ideal.sqrt (Ideal.ofBits .f32 0x00000000#32 + _)) _) = _
  rw [Ideal.ofBits_zero_f32, zero_add]
  rfl

/-- The logits of position `t`. -/
def lg (x0 : ArrZ) (x1 : ArrM) (t : Fin 32768) : Fin 2000 → EReal :=
  logit (unit wEps (flat x0 t)) (fun j => unit wEps (fun k => x1 (ix2 j k)))

theorem logits_apply (x0 : ArrZ) (x1 : ArrM) (t : Fin 32768) (j : Fin 2000) :
    val_main_v13 (F := Ideal) x0 x1 (ix2 t j) = lg x0 x1 t j := by
  rw [val_main_v13_apply]
  unfold lg logit
  refine Finset.sum_congr rfl fun k _ => ?_
  have hl : lidx_main_v13 (ix2 t j) k = ix2 t k := funext fun a => Fin.ext (by match a with | ⟨0, _⟩ => rfl | ⟨1, _⟩ => rfl)
  have hr : idx_main_v12 (ridx_main_v13 (ix2 t j) k) = ix2 j k := funext fun a => Fin.ext (by match a with | ⟨0, _⟩ => rfl | ⟨1, _⟩ => rfl)
  rw [hl, val_main_v12_apply, hr, zn_apply, mn_apply]

/-- The row maximum, taken by the host's fold from `-∞` and then once more against `-∞`. -/
theorem max_apply (x0 : ArrZ) (x1 : ArrM) (t : Fin 32768) :
    val_main_v16 (F := Ideal) x0 x1 (ix1 t) = rowMax wLo (lg x0 x1 t) := by
  have hR : S32768x2000.Reduces [1] S32768 := by decide
  rw [val_main_v16_apply, val_main_v15_apply, val_main_cst_2_apply]
  unfold val_main_v14
  rw [Host.reduce_eq_fold_single FloatOps.maximumf _ _ reducesTo_S32768x2000_S32768_d1 hR h_S_ (ix1 t)]
  have hf : (val_main_v13 (F := Ideal) x0 x1 ∘ hR.lift (ix1 t)) = lg x0 x1 t := funext fun k =>
    (congrArg (val_main_v13 (F := Ideal) x0 x1) (funext fun a => Fin.ext (by match a with | ⟨0, _⟩ => rfl | ⟨1, _⟩ => rfl))).trans (logits_apply x0 x1 t k)
  rw [hf]
  exact max_rowMax wLo (lg x0 x1 t)

theorem soft_apply (x0 : ArrZ) (x1 : ArrM) (t : Fin 32768) (j : Fin 2000) :
    val_main_v24 (F := Ideal) x0 x1 (ix2 t j) = softQ wLo (lg x0 x1 t) j := by
  have hM : ∀ k : Fin 2000, val_main_v18 (F := Ideal) x0 x1 (ix2 t k) = rowMax wLo (lg x0 x1 t) := fun k => by
    have e : idx_main_v17 (idx_main_v18 (ix2 t k)) = ix1 t := funext fun a => Fin.ext (by match a with | ⟨0, _⟩ => rfl)
    rw [val_main_v18_apply, val_main_v17_apply, e, max_apply]
  have hE : ∀ k : Fin 2000, val_main_v20 (F := Ideal) x0 x1 (ix2 t k) = expo wLo (lg x0 x1 t) k := fun k => by
    rw [val_main_v20_apply, val_main_v19_apply, hM, logits_apply]; rfl
  have hi : ∀ k : Fin 2000, idx_main_v21 (idx_main_v22 (idx_main_v23 (ix2 t j))) k = ix2 t k := fun k =>
    funext fun a => Fin.ext (by match a with | ⟨0, _⟩ => rfl | ⟨1, _⟩ => rfl)
  rw [val_main_v24_apply, val_main_v23_apply, val_main_v22_apply, val_main_v21_apply, val_main_cst_3_apply]
  simp only [hi, hE]
  unfold softQ
  show Ideal.div _ (Ideal.ofBits .f32 0x00000000#32 + _) = _
  rw [Ideal.ofBits_zero_f32, zero_add]

theorem shrink_apply (x0 : ArrZ) (x1 : ArrM) (i : S32768x2000.Idx) :
    val_main_v32 (F := Ideal) x0 x1 i = shrink wThr wTiny (val_main_v24 (F := Ideal) x0 x1 i) := by
  rw [val_main_v32_apply, val_main_v28_apply, val_main_v27_apply, val_main_v31_apply, val_main_v29_apply, val_main_v26_apply,
    val_main_v25_apply, val_main_cst_4_apply, val_main_call2_v0_apply, val_main_call2_cst_apply, val_main_v30_apply,
    val_main_cst_5_apply]
  unfold shrink
  show Ideal.div (max (_ - wThr) (Ideal.ofBits .f32 0x00000000#32) * _) _ = _
  rw [Ideal.ofBits_zero_f32]
  rfl

theorem l1_apply (x0 : ArrZ) (x1 : ArrM) (t : Fin 32768) (j : Fin 2000) :
    val_main_v39 (F := Ideal) x0 x1 (ix2 t j) = l1Q wFloor (fun k => val_main_v32 (F := Ideal) x0 x1 (ix2 t k)) j := by
  have hi : ∀ k : Fin 2000, idx_main_v34 (idx_main_v35 (idx_main_v38 (ix2 t j))) k = ix2 t k := fun k =>
    funext fun a => Fin.ext (by match a with | ⟨0, _⟩ => rfl | ⟨1, _⟩ => rfl)
  rw [val_main_v39_apply, val_main_v38_apply, val_main_v37_apply, val_main_v35_apply, val_main_v34_apply, val_main_cst_6_apply,
    val_main_v36_apply, val_main_cst_7_apply]
  simp only [hi, val_main_v33_apply]
  unfold l1Q
  show Ideal.div _ (max (Ideal.ofBits .f32 0x00000000#32 + _) _) = _
  rw [Ideal.ofBits_zero_f32, zero_add]
  rfl

/-- THE WEIGHTS of position `t`. -/
theorem weights_apply (x0 : ArrZ) (x1 : ArrM) (t : Fin 32768) (j : Fin 2000) :
    val_main_v39 (F := Ideal) x0 x1 (ix2 t j) = addr (flat x0 t) (fun j k => x1 (ix2 j k)) j := by
  rw [l1_apply]
  unfold addr weightsQ
  refine congrArg (fun v => l1Q wFloor v j) (funext fun k => ?_)
  rw [shrink_apply, soft_apply]
  rfl

/-- THE READ-OUT of position `t` at channel `c`. -/
theorem zhat_apply (x0 : ArrZ) (x1 : ArrM) (t : Fin 32768) (c : Fin 256) :
    val_main_v40 (F := Ideal) x0 x1 (ix2 t c)
      = recall (addr (flat x0 t) (fun j k => x1 (ix2 j k))) (fun j k => x1 (ix2 j k)) c := by
  rw [val_main_v40_apply]
  unfold recall
  refine Finset.sum_congr rfl fun k _ => ?_
  have hl : lidx_main_v40 (ix2 t c) k = ix2 t k := funext fun a => Fin.ext (by match a with | ⟨0, _⟩ => rfl | ⟨1, _⟩ => rfl)
  have hr : ridx_main_v40 (ix2 t c) k = ix2 k c := funext fun a => Fin.ext (by match a with | ⟨0, _⟩ => rfl | ⟨1, _⟩ => rfl)
  rw [hl, hr, weights_apply]

/-- The read-out re-laid channel-major: entry `[n, c, d, h, w]` is channel `c` of position `(n, d, h, w)`. -/
theorem out_apply (x0 : ArrZ) (x1 : ArrM) (n : Fin 8) (c : Fin 256) (d : Fin 4) (h w : Fin 32) :
    val_main_v42 (F := Ideal) x0 x1 (ix5 n c d h w) = val_main_v40 (F := Ideal) x0 x1 (ix2 (posOf n d h w) c) := by
  have := n.isLt; have := c.isLt; have := d.isLt; have := h.isLt; have := w.isLt
  rw [val_main_v42_apply, val_main_v41_apply]
  refine congrArg (val_main_v40 (F := Ideal) x0 x1) (funext fun a => Fin.ext ?_)
  match a with
  | ⟨0, _⟩ => show (((((n.val * 4 + d.val) * 32 + h.val) * 32 + w.val) * 256 + c.val) / 256) = ((n.val * 4 + d.val) * 32 + h.val) * 32 + w.val; omega
  | ⟨1, _⟩ => show (((((n.val * 4 + d.val) * 32 + h.val) * 32 + w.val) * 256 + c.val) % 256) = c.val; omega

/-! ## The two results -/

theorem weights_eq (x0 : ArrZ) (x1 : ArrM) : val_main_v39 (F := Ideal) x0 x1 = GW x0 x1 := by
  funext i
  obtain ⟨t, j, rfl⟩ : ∃ (t : Fin 32768) (j : Fin 2000), i = ix2 t j := ⟨i 0, i 1, eq_ix2 i⟩
  rw [weights_apply]
  unfold GW rowsM
  exact congrArg (fun x => addr x (fun j k => x1 (ix2 j k)) j) (funext fun k => flat_apply x0 t k)

theorem out_eq (x0 : ArrZ) (x1 : ArrM) : val_main_v42 (F := Ideal) x0 x1 = GZ x0 x1 := by
  funext i
  obtain ⟨n, c, d, h, w, rfl⟩ : ∃ (n : Fin 8) (c : Fin 256) (d : Fin 4) (h w : Fin 32), i = ix5 n c d h w :=
    ⟨i 0, i 1, i 2, i 3, i 4, eq_ix5 i⟩
  rw [out_apply, zhat_apply]
  unfold GZ rowsM
  exact congrArg (fun x => recall (addr x (fun j k => x1 (ix2 j k))) (fun j k => x1 (ix2 j k)) c)
    (funext fun k => flat_apply x0 (posOf n d h w) k)

end Cert.ReferenceIdeal.Hand

end
-- ==== Proof.Finite.lean ====
/-
  The precondition, opened: both arguments hold real numbers.

  The printed precondition compares each entry's absolute value with `+∞` (the word `0x7F800000`), takes the
  conjunction over all entries of each argument, and the conjunction of the two. An extended real whose absolute
  value `max x (-x)` is strictly below `+∞` is neither infinity (at either one the absolute value is `+∞`), so it
  is a real.
-/
import proofs.«100196_j25701084299676_2_alg».proof.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

noncomputable section

namespace Cert.Pre_finite_inputs.Hand

open Idealize.ShloMosaic Cert.Pre_finite_inputs

instance : Subsingleton S_.Idx := ⟨fun a b => funext fun d => d.elim0⟩

/-- An extended real whose absolute value is below `+∞` is a real. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition every entry of both arguments is a real. -/
theorem real_of_pre [Facts] (z : FVec Ideal S8x256x4x32x32 .f32) (mem : FVec Ideal S2000x256 .f32)
    (h : fn (F := Ideal) z mem = fun _ => 1#1) :
    (∀ i, ∃ r : ℝ, z i = (r : EReal)) ∧ (∀ i, ∃ r : ℝ, mem i = (r : EReal)) := by
  have h0 := congrFun h ValueIdx.ix0
  dsimp only [fn] at h0
  obtain ⟨h1, h2⟩ := IntOp.andi_eq_one.mp h0
  exact ⟨fun i => real_of_abs_lt (z i) (Host.reduce_andi_all _ _ _ _ _ h1 i),
    fun i => real_of_abs_lt (mem i) (Host.reduce_andi_all _ _ _ _ _ h2 i)⟩

end Cert.Pre_finite_inputs.Hand

end
-- ==== Proof.Bridge.lean ====
/-
  The kernel's two result arrays are the specification's, on real inputs.

  The kernel's arrays are written over what the region finds: `z` reshaped to `[8, 256, 4096]` and the memory's rows
  already scaled to unit length. Reading the reshape at an index (the entry with the same row-major position: site
  `p` of batch entry `n` is position `4096·n + p`) and the scaled rows by the reading of `RefRows.lean` gives each
  position's weights in the spelling with reciprocals; on real inputs that spelling is the quotient spelling
  (`Rows.lean`), which is the specification. The host's last reshape puts site `p = (32·d + h)·32 + w` at `(d, h, w)`.
-/
import proofs.«100196_j25701084299676_2_alg».proof.Proof.Tile
import proofs.«100196_j25701084299676_2_alg».proof.Proof.RefRows
import proofs.«100196_j25701084299676_2_alg».proof.Proof.Finite

set_option maxRecDepth 16384

noncomputable section

open scoped BigOperators

namespace Cert.KernelIdeal.Bridge

open Idealize.ShloMosaic Idealize.ShloMosaic.TcCoe Idealize.SL.Sem
open Idealize.ShloMosaic.ValueIdx
open Cert.KernelIdeal Cert.KernelIdeal.Gen Cert.KernelIdeal.Tile Cert.MemRead

/-- `z` reshaped to `[8, 256, 4096]`, read at batch entry `n`, channel `k`, site `p`: channel `k` of position `4096·n + p`. -/
theorem zcast_apply (z : SZ.Idx → EReal) (h : SZ.ShapeCasts S8x256x4096) (n : Fin 8) (k : Fin 256) (p : Fin 4096)
    (t : Fin 32768) (ht : t.val = n.val * 4096 + p.val) : shapeCast S8x256x4096 z h (ix3 n k p) = z (chan t k) := by
  have := n.isLt; have := k.isLt; have := p.isLt
  refine shapeCast_apply z h (ix3 n k p) (chan t k) ?_
  rw [Shape.rowMajor_val_five, Shape.rowMajor_val_three]
  show ((((t.val / 4096) * 256 + k.val) * 4 + t.val / 1024 % 4) * 32 + t.val / 32 % 32) * 32 + t.val % 32
    = (n.val * 256 + k.val) * 4096 + p.val
  omega

/-- An `[8, 256, 4096]` array reshaped to `[8, 256, 4, 32, 32]`, read at `(n, c, d, h, w)`: site `(32·d + h)·32 + w`. -/
theorem outcast_apply (A : S8x256x4096.Idx → EReal) (hc : S8x256x4096.ShapeCasts SZ) (n : Fin 8) (c : Fin 256) (d : Fin 4)
    (h w : Fin 32) :
    shapeCast SZ A hc (ix5 n c d h w)
      = A (ix3 n c (⟨(d.val * 32 + h.val) * 32 + w.val, by have := d.isLt; have := h.isLt; have := w.isLt; omega⟩ : Fin 4096)) := by
  have := n.isLt; have := c.isLt; have := d.isLt; have := h.isLt; have := w.isLt
  refine shapeCast_apply A hc (ix5 n c d h w) (ix3 n c _) ?_
  rw [Shape.rowMajor_val_three, Shape.rowMajor_val_five]
  show (n.val * 256 + c.val) * 4096 + ((d.val * 32 + h.val) * 32 + w.val)
    = (((n.val * 256 + c.val) * 4 + d.val) * 32 + h.val) * 32 + w.val
  omega

/-- One position's weights, over what the region finds, are its addressing weights in the spelling with reciprocals. -/
theorem kwRow_eq (z : SZ.Idx → EReal) (mem : SM.Idx → EReal) (hc : SZ.ShapeCasts S8x256x4096) (n : Fin 8) (p : Fin 4096)
    (t : Fin 32768) (ht : t.val = n.val * 4096 + p.val) :
    kwRow (shapeCast S8x256x4096 z hc) (Cert.ReferenceIdeal.Read.val_main_v11 (F := Ideal) mem) n p
      = addrP (fun k => z (chan t k)) (rowsM mem) := by
  unfold kwRow addrP
  have h1 : (fun k => shapeCast S8x256x4096 z hc (ix3 n k p)) = fun k => z (chan t k) :=
    funext fun k => zcast_apply z hc n k p t ht
  have h2 : (fun j k => Cert.ReferenceIdeal.Read.val_main_v11 (F := Ideal) mem (ix2 j k)) = fun j => unit wEps (rowsM mem j) :=
    funext fun j => funext fun k => Cert.ReferenceIdeal.Hand.mn_apply mem j k
  rw [h1, h2]

/-- The weights array over the reshaped `z` and the scaled memory is the specification's, on real inputs. -/
theorem KW_cast_eq (z : SZ.Idx → EReal) (mem : SM.Idx → EReal) (hc : SZ.ShapeCasts S8x256x4096)
    (hz : ∀ i, ∃ r : ℝ, z i = (r : EReal)) (hm : ∀ i, ∃ r : ℝ, mem i = (r : EReal)) :
    KW (shapeCast S8x256x4096 z hc) (Cert.ReferenceIdeal.Read.val_main_v11 (F := Ideal) mem) = GW z mem := by
  funext i
  obtain ⟨t, j, rfl⟩ : ∃ (t : Fin 32768) (j : Fin 2000), i = ix2 t j := ⟨i 0, i 1, eq_ix2 i⟩
  show kwRow (shapeCast S8x256x4096 z hc) (Cert.ReferenceIdeal.Read.val_main_v11 (F := Ideal) mem)
      ⟨t.val / 4096, _⟩ ⟨t.val % 4096, _⟩ j = addr (fun k => z (chan t k)) (rowsM mem) j
  rw [kwRow_eq z mem hc _ _ t (by show t.val = t.val / 4096 * 4096 + t.val % 4096; omega),
    addrP_eq_addr (x := fun k => z (chan t k)) (mem := rowsM mem) (by decide) (fun k => hz _) (fun j k => hm _)]

/-- The read-out array over the same, re-laid by the host's reshape, is the specification's, on real inputs. -/
theorem KZ_cast_eq (z : SZ.Idx → EReal) (mem : SM.Idx → EReal) (hc : SZ.ShapeCasts S8x256x4096) (hc' : S8x256x4096.ShapeCasts SZ)
    (hz : ∀ i, ∃ r : ℝ, z i = (r : EReal)) (hm : ∀ i, ∃ r : ℝ, mem i = (r : EReal)) :
    shapeCast SZ (KZ (shapeCast S8x256x4096 z hc) (Cert.ReferenceIdeal.Read.val_main_v11 (F := Ideal) mem) mem) hc' = GZ z mem := by
  funext i
  obtain ⟨n, ch, d, h, w, rfl⟩ : ∃ (n : Fin 8) (ch : Fin 256) (d : Fin 4) (h w : Fin 32), i = ix5 n ch d h w :=
    ⟨i 0, i 1, i 2, i 3, i 4, eq_ix5 i⟩
  have := n.isLt; have := d.isLt; have := h.isLt; have := w.isLt
  rw [outcast_apply]
  show ∑ j : Fin 2000, kwRow (shapeCast S8x256x4096 z hc) (Cert.ReferenceIdeal.Read.val_main_v11 (F := Ideal) mem) n
        (⟨(d.val * 32 + h.val) * 32 + w.val, _⟩ : Fin 4096) j * mem (ix2 j ch)
      = recall (addr (fun k => z (chan (posOf n d h w) k)) (rowsM mem)) (rowsM mem) ch
  rw [kwRow_eq z mem hc n _ (posOf n d h w) (by
      show ((n.val * 4 + d.val) * 32 + h.val) * 32 + w.val = n.val * 4096 + ((d.val * 32 + h.val) * 32 + w.val); omega),
    addrP_eq_addr (x := fun k => z (chan (posOf n d h w) k)) (mem := rowsM mem) (by decide) (fun k => hz _) (fun j k => hm _)]
  rfl

variable (m : (ℓ : Loc nD τ sig) → Buf (Elt Ideal) ℓ)

/-- THE WEIGHTS ARRAY after the run is the specification's, on real inputs. -/
theorem KW_eq (c : Dev nD)
    (hz : ∀ i, ∃ r : ℝ, (m ((c : Thread nD τ).loc main_arg0) : SZ.Idx → EReal) i = (r : EReal))
    (hm : ∀ i, ∃ r : ℝ, (m ((c : Thread nD τ).loc main_arg1) : SM.Idx → EReal) i = (r : EReal)) :
    KW (V m c main_v0) (V m c main_v5)
      = GW (m ((c : Thread nD τ).loc main_arg0)) (m ((c : Thread nD τ).loc main_arg1)) :=
  (congrArg₂ KW (V_z m c) (V_mn m c)).trans (KW_cast_eq _ _ _ hz hm)

/-- THE READ-OUT ARRAY after the run, re-laid by the host, is the specification's, on real inputs. -/
theorem KZ_eq (c : Dev nD)
    (hz : ∀ i, ∃ r : ℝ, (m ((c : Thread nD τ).loc main_arg0) : SZ.Idx → EReal) i = (r : EReal))
    (hm : ∀ i, ∃ r : ℝ, (m ((c : Thread nD τ).loc main_arg1) : SM.Idx → EReal) i = (r : EReal)) :
    shapeCast S8x256x4x32x32 (KZ (V m c main_v0) (V m c main_v5) (V m c main_v6)) shapeCasts_S8x256x4096_S8x256x4x32x32
      = GZ (m ((c : Thread nD τ).loc main_arg0)) (m ((c : Thread nD τ).loc main_arg1)) :=
  (congrArg (fun A : S8x256x4096.Idx → EReal => shapeCast S8x256x4x32x32 A shapeCasts_S8x256x4096_S8x256x4x32x32)
    ((congrArg₂ (fun a b => KZ a b (V m c main_v6)) (V_z m c) (V_mn m c)).trans
      (congrArg (KZ _ _) (V_mem m c)))).trans (KZ_cast_eq _ _ _ _ hz hm)

end Cert.KernelIdeal.Bridge

end
-- ==== Proof.lean ====
/-
  The certificate of a cosine-similarity memory read against its plain reference.

  Both programs compute, for each of the 32768 positions of `z` (a batch entry and a spatial site, 256 channels),
  its addressing weights over the 2000 memory rows — unit-scale the position's channels and each memory row, take the
  inner products, softmax them, hard-shrink the weights, divide the row by its clamped sum of absolute values — and
  its read-out, the memory's rows weighted by those weights, written back channel-major. The kernel works tile by
  tile on the channel-major layout and spells the softmax's and the last division as products with reciprocals; the
  reference flattens `z` to positions × channels and divides. At the ideal values the tiling, the layouts, the order
  of the sums and the changes of float format make no difference. The one law that joins the two sides is
  `x · (1 / y) = x / y`, which on the extended reals needs `y ≠ 0`: the clamped sum of absolute values is at least a
  positive constant, and the softmax's total is positive once every logit is a real number — which is where the
  precondition (every input entry finite) is used: unit-scaled rows of real rows are real, and so are their inner
  products.

  `Rows.lean` has the row arithmetic, that law and the finiteness lemmas; `Layout.lean` the two results as functions
  of the arguments; `RefRows.lean` reads the reference into them; `Body.lean` reads the kernel's body at an index,
  `Tile.lean` and `KernelRun.lean` take its tiles to whole arrays and through the host's last reshape, `Bridge.lean`
  identifies those arrays with the same two functions on real inputs; `Finite.lean` opens the precondition.
-/
import proofs.«100196_j25701084299676_2_alg».proof.Defs
import proofs.«100196_j25701084299676_2_alg».proof.Proof.Gen.Kernel
import proofs.«100196_j25701084299676_2_alg».proof.Proof.Gen.Kernel.Skeleton
import proofs.«100196_j25701084299676_2_alg».proof.Proof.Gen.Kernel.Launch
import proofs.«100196_j25701084299676_2_alg».proof.Proof.Gen.Kernel.Points
import proofs.«100196_j25701084299676_2_alg».proof.Proof.Gen.Kernel.Frame
import proofs.«100196_j25701084299676_2_alg».proof.Proof.Gen.KernelIdeal
import proofs.«100196_j25701084299676_2_alg».proof.Proof.Gen.KernelIdeal.Skeleton
import proofs.«100196_j25701084299676_2_alg».proof.Proof.Gen.KernelIdeal.Launch
import proofs.«100196_j25701084299676_2_alg».proof.Proof.Gen.KernelIdeal.Points
import proofs.«100196_j25701084299676_2_alg».proof.Proof.Gen.KernelIdeal.Frame
import proofs.«100196_j25701084299676_2_alg».proof.Proof.Gen.ReferenceIdeal
import proofs.«100196_j25701084299676_2_alg».proof.Proof.Gen.Pre_finite_inputs
import proofs.«100196_j25701084299676_2_alg».proof.Proof.Gen.ReferenceIdeal.Run
import proofs.«100196_j25701084299676_2_alg».proof.Proof.Gen.ReferenceIdeal.Read
import proofs.«100196_j25701084299676_2_alg».proof.Proof.KernelRun
import proofs.«100196_j25701084299676_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- And the reference: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- From memories agreeing on the arguments, under the precondition, both idealized programs end with the read-outs
    `GZ` and the weights `GW` of the arguments: the kernel by its run and the identification of its arrays on real
    inputs, the reference by its run and its reading. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hreal := fun c => Cert.Pre_finite_inputs.Hand.real_of_pre _ _ (hpre c)
  refine ⟨fun c => Cert.MemRead.GZ (m ((c.tc : Thread _ _).loc Cert.KernelIdeal.main_arg0)) (m ((c.tc : Thread _ _).loc Cert.KernelIdeal.main_arg1)),
    fun c => Cert.MemRead.GW (m ((c.tc : Thread _ _).loc Cert.KernelIdeal.main_arg0)) (m ((c.tc : Thread _ _).loc Cert.KernelIdeal.main_arg1)), ?_, ?_⟩
  · refine (θ_run Cert.KernelIdeal.defs _ _).mono (fun _ h c => ?_) (Cert.KernelIdeal.Tile.run m ρ)
    exact ⟨(h c).1.trans (Cert.KernelIdeal.Bridge.KZ_eq m c (hreal c).1 (hreal c).2),
      (h c).2.1.trans (Cert.KernelIdeal.Bridge.KW_eq m c (hreal c).1 (hreal c).2), (h c).2.2.1, (h c).2.2.2⟩
  · refine (θ_run Cert.ReferenceIdeal.defs _ _).mono (fun _ h c => ?_) (Cert.ReferenceIdeal.Value.run (F := Ideal) m' ρ')
    refine ⟨(h c).1.trans ?_, (h c).2.1.trans ?_, (h c).2.2.1, (h c).2.2.2⟩
    · rw [Cert.ReferenceIdeal.Read.val_main_v42_eq, Cert.ReferenceIdeal.Hand.out_eq, (hagree c).1, (hagree c).2]
    · rw [Cert.ReferenceIdeal.Read.val_main_v39_eq, Cert.ReferenceIdeal.Hand.weights_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
